-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6272x512x3x3 : Shape := ⟨4, ![6272, 512, 3, 3]⟩
abbrev S6272x1024x3x3 : Shape := ⟨4, ![6272, 1024, 3, 3]⟩
abbrev S_ : Shape := ⟨0, ![]⟩

class Facts : Prop where
  bcast_S_S6272x512x3x3 : S_.BroadcastsInDim S6272x512x3x3 (![] : Fin 0 → Fin S6272x512x3x3.rank)
  reducesTo_S6272x512x3x3_S_d0_1_2_3 : S6272x512x3x3.ReducesTo [0, 1, 2, 3] S_
  h_S_ : 0 < S_.numel
  bcast_S_S6272x1024x3x3 : S_.BroadcastsInDim S6272x1024x3x3 (![] : Fin 0 → Fin S6272x1024x3x3.rank)
  reducesTo_S6272x1024x3x3_S_d0_1_2_3 : S6272x1024x3x3.ReducesTo [0, 1, 2, 3] S_

variable [Facts]

def fn {F : FTy → Type} [FloatOps F] (main_arg0 : FVec F S6272x512x3x3 .f32) (main_arg1 : FVec F S6272x1024x3x3 .f32) : IVec S_ 1 :=
  let main_v0 : FVec F S6272x512x3x3 .f32 := Host.absf main_arg0
  let main_cst : FVec F S_ .f32 := constant S_ .f32 0x7F800000#32
  let main_v1 : FVec F S6272x512x3x3 .f32 := broadcastInDim S6272x512x3x3 ![] bcast_S_S6272x512x3x3 main_cst
  let main_v2 : IVec S6272x512x3x3 1 := cmpf .olt main_v0 main_v1
  let main_c : IVec S_ 1 := constantI S_ 1 1#1
  let main_v3 : IVec S_ 1 := (fun x v => Host.reduce IntOp.andi x v reducesTo_S6272x512x3x3_S_d0_1_2_3 h_S_) main_v2 main_c
  let main_v4 : FVec F S6272x1024x3x3 .f32 := Host.absf main_arg1
  let main_cst_0 : FVec F S_ .f32 := constant S_ .f32 0x7F800000#32
  let main_v5 : FVec F S6272x1024x3x3 .f32 := broadcastInDim S6272x1024x3x3 ![] bcast_S_S6272x1024x3x3 main_cst_0
  let main_v6 : IVec S6272x1024x3x3 1 := cmpf .olt main_v4 main_v5
  let main_c_1 : IVec S_ 1 := constantI S_ 1 1#1
  let main_v7 : IVec S_ 1 := (fun x v => Host.reduce IntOp.andi x v reducesTo_S6272x1024x3x3_S_d0_1_2_3 h_S_) main_v6 main_c_1
  let main_v8 : IVec S_ 1 := andi main_v3 main_v7
  main_v8
-- ==== Kernel.lean ====
abbrev S6272x512x3x3 : Shape := ⟨4, ![6272, 512, 3, 3]⟩
abbrev S6272x1024x3x3 : Shape := ⟨4, ![6272, 1024, 3, 3]⟩
abbrev S64x16 : Shape := ⟨2, ![64, 16]⟩
abbrev S6272x512x9 : Shape := ⟨3, ![6272, 512, 9]⟩
abbrev S6272x64x16 : Shape := ⟨3, ![6272, 64, 16]⟩
abbrev S224x512x9 : Shape := ⟨3, ![224, 512, 9]⟩
abbrev S224x64x16 : Shape := ⟨3, ![224, 64, 16]⟩
abbrev S224x64x8x9 : Shape := ⟨4, ![224, 64, 8, 9]⟩
abbrev S224x64x9 : Shape := ⟨3, ![224, 64, 9]⟩
abbrev S224x64x64 : Shape := ⟨3, ![224, 64, 64]⟩
abbrev S14336x64 : Shape := ⟨2, ![14336, 64]⟩
abbrev S14336x16 : Shape := ⟨2, ![14336, 16]⟩
abbrev S6272x1024 : Shape := ⟨2, ![6272, 1024]⟩
abbrev S6272x1024x9 : Shape := ⟨3, ![6272, 1024, 9]⟩
abbrev S224x1024x9 : Shape := ⟨3, ![224, 1024, 9]⟩
abbrev S224x64x16x9 : Shape := ⟨4, ![224, 64, 16, 9]⟩
abbrev S6272x1x1024 : Shape := ⟨3, ![6272, 1, 1024]⟩
abbrev S6272x2x1024 : Shape := ⟨3, ![6272, 2, 1024]⟩

abbrev nBuf : Space → Nat
  | .hbm => 13
  | .vmem => 10
  | .smem => 0
  | _ => 0

abbrev bufTy : (tb : Table) → Fin (tcTables nBuf tb) → BufTy
  | .hbm, ⟨0, _⟩ => ⟨S6272x512x3x3, .f32⟩
  | .hbm, ⟨1, _⟩ => ⟨S6272x1024x3x3, .f32⟩
  | .hbm, ⟨2, _⟩ => ⟨S64x16, .f32⟩
  | .hbm, ⟨3, _⟩ => ⟨S64x16, .f32⟩
  | .hbm, ⟨4, _⟩ => ⟨S6272x512x9, .f32⟩
  | .hbm, ⟨5, _⟩ => ⟨S6272x64x16, .f32⟩
  | .hbm, ⟨6, _⟩ => ⟨S6272x1024, .f32⟩
  | .hbm, ⟨7, _⟩ => ⟨S6272x1024x9, .f32⟩
  | .hbm, ⟨8, _⟩ => ⟨S6272x64x16, .f32⟩
  | .hbm, ⟨9, _⟩ => ⟨S6272x1024, .f32⟩
  | .hbm, ⟨10, _⟩ => ⟨S6272x1x1024, .f32⟩
  | .hbm, ⟨11, _⟩ => ⟨S6272x1x1024, .f32⟩
  | .hbm, ⟨12, _⟩ => ⟨S6272x2x1024, .f32⟩
  | .local _ .vmem, ⟨0, _⟩ => ⟨S224x512x9, .f32⟩
  | .local _ .vmem, ⟨1, _⟩ => ⟨S224x512x9, .f32⟩
  | .local _ .vmem, ⟨2, _⟩ => ⟨S64x16, .f32⟩
  | .local _ .vmem, ⟨3, _⟩ => ⟨S224x64x16, .f32⟩
  | .local _ .vmem, ⟨4, _⟩ => ⟨S224x64x16, .f32⟩
  | .local _ .vmem, ⟨5, _⟩ => ⟨S224x1024x9, .f32⟩
  | .local _ .vmem, ⟨6, _⟩ => ⟨S224x1024x9, .f32⟩
  | .local _ .vmem, ⟨7, _⟩ => ⟨S64x16, .f32⟩
  | .local _ .vmem, ⟨8, _⟩ => ⟨S224x64x16, .f32⟩
  | .local _ .vmem, ⟨9, _⟩ => ⟨S224x64x16, .f32⟩
  | _, _ => ⟨S6272x512x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![28], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S224x512x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S224x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![28], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S224x1024x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S224x64x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S6272x512x3x3_S6272x512x9 : S6272x512x3x3.ShapeCasts S6272x512x9
  inb_S224x512x9_S224x512x9_0_0_0 : ∀ a, (![0, 0, 0] : Fin 3 → Nat) a + S224x512x9.size a ≤ S224x512x9.size a
  h_S224x512x9 : 0 < S224x512x9.numel
  shapeCasts_S224x512x9_S224x512x9 : S224x512x9.ShapeCasts S224x512x9
  shapeCasts_S224x512x9_S224x64x8x9 : S224x512x9.ShapeCasts S224x64x8x9
  reduces_S224x64x8x9_S224x64x9 : S224x64x8x9.Reduces [2] S224x64x9
  bitsLt_bf16_f32 : FTy.bits .bf16 < FTy.bits .f32
  shapeCasts_S224x64x64_S14336x64 : S224x64x64.ShapeCasts S14336x64
  inb_S64x16_S64x16_0_0 : ∀ a, (![0, 0] : Fin 2 → Nat) a + S64x16.size a ≤ S64x16.size a
  h_S64x16 : 0 < S64x16.numel
  shapeCasts_S14336x16_S224x64x16 : S14336x16.ShapeCasts S224x64x16
  inb_S224x64x16_S224x64x16_0_0_0 : ∀ a, (![0, 0, 0] : Fin 3 → Nat) a + S224x64x16.size a ≤ S224x64x16.size a
  h_S224x64x16 : 0 < S224x64x16.numel
  shapeCasts_S6272x64x16_S6272x1024 : S6272x64x16.ShapeCasts S6272x1024
  shapeCasts_S6272x1024x3x3_S6272x1024x9 : S6272x1024x3x3.ShapeCasts S6272x1024x9
  inb_S224x1024x9_S224x1024x9_0_0_0 : ∀ a, (![0, 0, 0] : Fin 3 → Nat) a + S224x1024x9.size a ≤ S224x1024x9.size a
  h_S224x1024x9 : 0 < S224x1024x9.numel
  shapeCasts_S224x1024x9_S224x1024x9 : S224x1024x9.ShapeCasts S224x1024x9
  shapeCasts_S224x1024x9_S224x64x16x9 : S224x1024x9.ShapeCasts S224x64x16x9
  reduces_S224x64x16x9_S224x64x9 : S224x64x16x9.Reduces [2] S224x64x9
  bcast_S6272x1024_S6272x1x1024_0_2 : S6272x1024.BroadcastsInDim S6272x1x1024 (![0, 2] : Fin 2 → Fin S6272x1x1024.rank)
  concatenates_S6272x1x1024_S6272x1x1024_S6272x2x1024_d1 : Shape.Concatenates [S6272x1x1024, S6272x1x1024] S6272x2x1024 1
  dot_S224x64x9_S224x64x9_S224x64x64_2_2_1_1_0_0_wf : DotDims.WF S224x64x9 S224x64x9 S224x64x64 [2] [2] [1] [1] [0] [0]
  dot_S14336x64_S64x16_S14336x16_1_0_0_1_n_n_wf : DotDims.WF S14336x64 S64x16 S14336x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S224x512x9.size a ≤ S6272x512x9.size a
  hwx0_0 : ∀ i : grid0.Coords, EltTy.bits .f32 = 32 ∨ (Rect.block (s := S6272x512x9) S224x512x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S224x64x16.size a ≤ S6272x64x16.size a
  hwx0_2 : ∀ i : grid0.Coords, EltTy.bits .f32 = 32 ∨ (Rect.block (s := S6272x64x16) S224x64x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S224x1024x9.size a ≤ S6272x1024x9.size a
  hwx1_0 : ∀ i : grid1.Coords, EltTy.bits .f32 = 32 ∨ (Rect.block (s := S6272x1024x9) S224x1024x9.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S224x64x16.size a ≤ S6272x64x16.size a
  hwx1_2 : ∀ i : grid1.Coords, EltTy.bits .f32 = 32 ∨ (Rect.block (s := S6272x64x16) S224x64x16.size (cc1_transform_2 i) (hinb1_2 i)).WholeWords (EltTy.packing .f32)

variable [Facts₀]

def dot_S224x64x9_S224x64x9_S224x64x64_2_2_1_1_0_0 : DotDims S224x64x9 S224x64x9 S224x64x64 where
  lhsContracting := [2]
  rhsContracting := [2]
  lhsNonContracting := [1]
  rhsNonContracting := [1]
  lhsBatch := [0]
  rhsBatch := [0]
  wf := dot_S224x64x9_S224x64x9_S224x64x64_2_2_1_1_0_0_wf
def dot_S14336x64_S64x16_S14336x16_1_0_0_1_n_n : DotDims S14336x64 S64x16 S14336x16 where
  lhsContracting := [1]
  rhsContracting := [0]
  lhsNonContracting := [0]
  rhsNonContracting := [1]
  lhsBatch := []
  rhsBatch := []
  wf := dot_S14336x64_S64x16_S14336x16_1_0_0_1_n_n_wf

abbrev win0_0 : Pipeline.Window sig grid0 :=
  Pipeline.Window.ofSpec (Memref.whole main_v0) S224x512x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S224x64x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S224x1024x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_cst_0) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S224x64x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S6272x512x3x3 : Shape := ⟨4, ![6272, 512, 3, 3]⟩
abbrev S6272x1024x3x3 : Shape := ⟨4, ![6272, 1024, 3, 3]⟩
abbrev S6272x512x9 : Shape := ⟨3, ![6272, 512, 9]⟩
abbrev S6272x9x512 : Shape := ⟨3, ![6272, 9, 512]⟩
abbrev S6272x9x64x8 : Shape := ⟨4, ![6272, 9, 64, 8]⟩
abbrev S_ : Shape := ⟨0, ![]⟩
abbrev S6272x9x64 : Shape := ⟨3, ![6272, 9, 64]⟩
abbrev S6272x64x9 : Shape := ⟨3, ![6272, 64, 9]⟩
abbrev S6272x64x64 : Shape := ⟨3, ![6272, 64, 64]⟩
abbrev S6272x4096 : Shape := ⟨2, ![6272, 4096]⟩
abbrev S6272x1024x4 : Shape := ⟨3, ![6272, 1024, 4]⟩
abbrev S6272x1024 : Shape := ⟨2, ![6272, 1024]⟩
abbrev S6272x1024x9 : Shape := ⟨3, ![6272, 1024, 9]⟩
abbrev S6272x9x1024 : Shape := ⟨3, ![6272, 9, 1024]⟩
abbrev S6272x9x64x16 : Shape := ⟨4, ![6272, 9, 64, 16]⟩
abbrev S6272x1x1024 : Shape := ⟨3, ![6272, 1, 1024]⟩
abbrev S6272x2x1024 : Shape := ⟨3, ![6272, 2, 1024]⟩

abbrev nBuf : Space → Nat
  | .hbm => 45
  | .vmem => 0
  | .smem => 0
  | _ => 0

abbrev bufTy : (tb : Table) → Fin (tcTables nBuf tb) → BufTy
  | .hbm, ⟨0, _⟩ => ⟨S6272x512x3x3, .f32⟩
  | .hbm, ⟨1, _⟩ => ⟨S6272x1024x3x3, .f32⟩
  | .hbm, ⟨2, _⟩ => ⟨S6272x512x9, .f32⟩
  | .hbm, ⟨3, _⟩ => ⟨S6272x9x512, .f32⟩
  | .hbm, ⟨4, _⟩ => ⟨S6272x9x64x8, .f32⟩
  | .hbm, ⟨5, _⟩ => ⟨S_, .f32⟩
  | .hbm, ⟨6, _⟩ => ⟨S6272x9x64, .f32⟩
  | .hbm, ⟨7, _⟩ => ⟨S_, .f32⟩
  | .hbm, ⟨8, _⟩ => ⟨S6272x9x64, .f32⟩
  | .hbm, ⟨9, _⟩ => ⟨S6272x9x64, .f32⟩
  | .hbm, ⟨10, _⟩ => ⟨S6272x64x9, .f32⟩
  | .hbm, ⟨11, _⟩ => ⟨S6272x64x64, .f32⟩
  | .hbm, ⟨12, _⟩ => ⟨S_, .f32⟩
  | .hbm, ⟨13, _⟩ => ⟨S6272x64x64, .f32⟩
  | .hbm, ⟨14, _⟩ => ⟨S6272x64x64, .f32⟩
  | .hbm, ⟨15, _⟩ => ⟨S6272x4096, .f32⟩
  | .hbm, ⟨16, _⟩ => ⟨S6272x1024x4, .f32⟩
  | .hbm, ⟨17, _⟩ => ⟨S_, .f32⟩
  | .hbm, ⟨18, _⟩ => ⟨S6272x1024, .f32⟩
  | .hbm, ⟨19, _⟩ => ⟨S_, .f32⟩
  | .hbm, ⟨20, _⟩ => ⟨S6272x1024, .f32⟩
  | .hbm, ⟨21, _⟩ => ⟨S6272x1024, .f32⟩
  | .hbm, ⟨22, _⟩ => ⟨S6272x1024x9, .f32⟩
  | .hbm, ⟨23, _⟩ => ⟨S6272x9x1024, .f32⟩
  | .hbm, ⟨24, _⟩ => ⟨S6272x9x64x16, .f32⟩
  | .hbm, ⟨25, _⟩ => ⟨S_, .f32⟩
  | .hbm, ⟨26, _⟩ => ⟨S6272x9x64, .f32⟩
  | .hbm, ⟨27, _⟩ => ⟨S_, .f32⟩
  | .hbm, ⟨28, _⟩ => ⟨S6272x9x64, .f32⟩
  | .hbm, ⟨29, _⟩ => ⟨S6272x9x64, .f32⟩
  | .hbm, ⟨30, _⟩ => ⟨S6272x64x9, .f32⟩
  | .hbm, ⟨31, _⟩ => ⟨S6272x64x64, .f32⟩
  | .hbm, ⟨32, _⟩ => ⟨S_, .f32⟩
  | .hbm, ⟨33, _⟩ => ⟨S6272x64x64, .f32⟩
  | .hbm, ⟨34, _⟩ => ⟨S6272x64x64, .f32⟩
  | .hbm, ⟨35, _⟩ => ⟨S6272x4096, .f32⟩
  | .hbm, ⟨36, _⟩ => ⟨S6272x1024x4, .f32⟩
  | .hbm, ⟨37, _⟩ => ⟨S_, .f32⟩
  | .hbm, ⟨38, _⟩ => ⟨S6272x1024, .f32⟩
  | .hbm, ⟨39, _⟩ => ⟨S_, .f32⟩
  | .hbm, ⟨40, _⟩ => ⟨S6272x1024, .f32⟩
  | .hbm, ⟨41, _⟩ => ⟨S6272x1024, .f32⟩
  | .hbm, ⟨42, _⟩ => ⟨S6272x1x1024, .f32⟩
  | .hbm, ⟨43, _⟩ => ⟨S6272x1x1024, .f32⟩
  | .hbm, ⟨44, _⟩ => ⟨S6272x2x1024, .f32⟩
  | _, _ => ⟨S6272x512x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  shapeCasts_S6272x512x3x3_S6272x512x9 : S6272x512x3x3.ShapeCasts S6272x512x9
  transposes_S6272x512x9_S6272x9x512_0_2_1 : S6272x512x9.Transposes [0, 2, 1] S6272x9x512
  shapeCasts_S6272x9x512_S6272x9x64x8 : S6272x9x512.ShapeCasts S6272x9x64x8
  reducesTo_S6272x9x64x8_S6272x9x64_d3 : S6272x9x64x8.ReducesTo [3] S6272x9x64
  h_S_ : 0 < S_.numel
  bcast_S_S6272x9x64 : S_.BroadcastsInDim S6272x9x64 (![] : Fin 0 → Fin S6272x9x64.rank)
  transposes_S6272x9x64_S6272x64x9_0_2_1 : S6272x9x64.Transposes [0, 2, 1] S6272x64x9
  bcast_S_S6272x64x64 : S_.BroadcastsInDim S6272x64x64 (![] : Fin 0 → Fin S6272x64x64.rank)
  shapeCasts_S6272x64x64_S6272x4096 : S6272x64x64.ShapeCasts S6272x4096
  shapeCasts_S6272x4096_S6272x1024x4 : S6272x4096.ShapeCasts S6272x1024x4
  reducesTo_S6272x1024x4_S6272x1024_d2 : S6272x1024x4.ReducesTo [2] S6272x1024
  bcast_S_S6272x1024 : S_.BroadcastsInDim S6272x1024 (![] : Fin 0 → Fin S6272x1024.rank)
  shapeCasts_S6272x1024x3x3_S6272x1024x9 : S6272x1024x3x3.ShapeCasts S6272x1024x9
  transposes_S6272x1024x9_S6272x9x1024_0_2_1 : S6272x1024x9.Transposes [0, 2, 1] S6272x9x1024
  shapeCasts_S6272x9x1024_S6272x9x64x16 : S6272x9x1024.ShapeCasts S6272x9x64x16
  reducesTo_S6272x9x64x16_S6272x9x64_d3 : S6272x9x64x16.ReducesTo [3] S6272x9x64
  bcast_S6272x1024_S6272x1x1024_0_2 : S6272x1024.BroadcastsInDim S6272x1x1024 (![0, 2] : Fin 2 → Fin S6272x1x1024.rank)
  concatenates_S6272x1x1024_S6272x1x1024_S6272x2x1024_d1 : Shape.Concatenates [S6272x1x1024, S6272x1x1024] S6272x2x1024 1
  dot_S6272x64x9_S6272x64x9_S6272x64x64_2_2_1_1_0_0_wf : DotDims.WF S6272x64x9 S6272x64x9 S6272x64x64 [2] [2] [1] [1] [0] [0]

variable [Facts₀]

def dot_S6272x64x9_S6272x64x9_S6272x64x64_2_2_1_1_0_0 : DotDims S6272x64x9 S6272x64x9 S6272x64x64 where
  lhsContracting := [2]
  rhsContracting := [2]
  lhsNonContracting := [1]
  rhsNonContracting := [1]
  lhsBatch := [0]
  rhsBatch := [0]
  wf := dot_S6272x64x9_S6272x64x9_S6272x64x64_2_2_1_1_0_0_wf

class Facts : Prop extends Facts₀ where

variable [Facts]
-- ==== Proof.KernelRun.lean ====
/-
  The kernel program's run with its result named.

  @main is five segments: three host operations (the two pooling matrices and the reshape of the first feature map),
  the first region, two host operations (the reshape of the first region's output and of the second feature map), the
  second region, and four host operations (the reshape of the second region's output, the two unit-axis insertions and
  the concatenation). Every weakly fair execution runs the segments in order; after the last one every unscoped buffer
  of a core holds the last boundary's contents, the fold `W5` of the segments from the launch memory. In particular
  the result buffer ends at `W5` there, and the two arguments end as launched.
-/
import proofs.«103834_j81587198755295_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c)⟩)

end Cert.KernelIdeal.ValueRun

end
-- ==== Proof.LibReshapeAxes.lean ====
/-
  Three reshapes that regroup axes without moving any element, each read at an index written by coordinates.

  Row-major position is what a reshape preserves. Splitting the middle axis of `[A, C, P]` with `C = B * K` into
  `[A, B, K, P]` sends `(a, b * K + k, p)` to `(a, b, k, p)`; merging the two leading axes of `[A, B, N]` into
  `[A * B, N]` sends `(a, b, n)` to `(a * B + b, n)`, and splitting them again is the inverse. In each case the two
  positions are the same polynomial in the coordinates. General: nothing here mentions a program.
-/
import Idealize.ShloMosaic.Lib.Pipeline.Value
import Idealize.ShloMosaic.Lib.ValueIdx

noncomputable section

namespace Cert.LibReshapeAxes

open Idealize.ShloMosaic Idealize.ShloMosaic.ValueIdx

/-- The middle coordinate `b * K + k` of the unsplit axis. -/
abbrev mid {B K C : ℕ} (hC : C = B * K) (b : Fin B) (k : Fin K) : Fin C :=
  ⟨b.val * K + k.val, by
    subst hC
    have hb := b.isLt; have hk := k.isLt
    calc b.val * K + k.val < b.val * K + K := by omega
      _ = (b.val + 1) * K := by ring
      _ ≤ B * K := Nat.mul_le_mul_right K hb⟩

/-- `[A, C, P] → [A, B, K, P]` with `C = B * K`, at `(a, b, k, p)`, is the operand at `(a, b * K + k, p)`. -/
theorem split_middle_at {α : Type} {A C B K P : ℕ} (x : (⟨3, ![A, C, P]⟩ : Shape).Idx → α)
    (h : (⟨3, ![A, C, P]⟩ : Shape).ShapeCasts ⟨4, ![A, B, K, P]⟩) (hC : C = B * K)
    (a : Fin A) (b : Fin B) (k : Fin K) (p : Fin P) :
    shapeCast ⟨4, ![A, B, K, P]⟩ x h (ix4 a b k p) = x (ix3 a (mid hC b k) p) := by
  refine shapeCast_apply x h _ _ ?_
  rewrite [Shape.rowMajor_val_three, Shape.rowMajor_val_four]
  show (a.val * C + (b.val * K + k.val)) * P + p.val = ((a.val * B + b.val) * K + k.val) * P + p.val
  subst hC; ring

/-- The merged leading coordinate `a * B + b`. -/
abbrev lead {A B M : ℕ} (hM : M = A * B) (a : Fin A) (b : Fin B) : Fin M :=
  ⟨a.val * B + b.val, by
    subst hM
    have ha := a.isLt; have hb := b.isLt
    calc a.val * B + b.val < a.val * B + B := by omega
      _ = (a.val + 1) * B := by ring
      _ ≤ A * B := Nat.mul_le_mul_right B ha⟩

/-- `[A, B, N] → [M, N]` with `M = A * B`, at `(a * B + b, n)`, is the operand at `(a, b, n)`. -/
theorem merge_leading_at {α : Type} {A B M N : ℕ} (x : (⟨3, ![A, B, N]⟩ : Shape).Idx → α)
    (h : (⟨3, ![A, B, N]⟩ : Shape).ShapeCasts ⟨2, ![M, N]⟩) (hM : M = A * B)
    (a : Fin A) (b : Fin B) (n : Fin N) :
    shapeCast ⟨2, ![M, N]⟩ x h (ix2 (lead hM a b) n) = x (ix3 a b n) := by
  refine shapeCast_apply x h _ _ ?_
  rewrite [Shape.rowMajor_val_three, Shape.rowMajor_val_two]
  rfl

/-- `[M, N] → [A, B, N]` with `M = A * B`, at `(a, b, n)`, is the operand at `(a * B + b, n)`. -/
theorem split_leading_at {α : Type} {A B M N : ℕ} (x : (⟨2, ![M, N]⟩ : Shape).Idx → α)
    (h : (⟨2, ![M, N]⟩ : Shape).ShapeCasts ⟨3, ![A, B, N]⟩) (hM : M = A * B)
    (a : Fin A) (b : Fin B) (n : Fin N) :
    shapeCast ⟨3, ![A, B, N]⟩ x h (ix3 a b n) = x (ix2 (lead hM a b) n) := by
  refine shapeCast_apply x h _ _ ?_
  rewrite [Shape.rowMajor_val_three, Shape.rowMajor_val_two]
  rfl

/-- `[A, B, N] → [A, M]` with `M = B * N` and `0 < N`, at `(a, o)`, is the operand at `(a, o / N, o % N)`. -/
theorem merge_trailing_at {α : Type} {A B N M : ℕ} (x : (⟨3, ![A, B, N]⟩ : Shape).Idx → α)
    (h : (⟨3, ![A, B, N]⟩ : Shape).ShapeCasts ⟨2, ![A, M]⟩) (hM : M = B * N) (hN : 0 < N)
    (a : Fin A) (o : Fin M) :
    shapeCast ⟨2, ![A, M]⟩ x h (ix2 a o)
      = x (ix3 a (⟨o.val / N, by have := o.isLt; subst hM; exact Nat.div_lt_of_lt_mul (lt_of_lt_of_eq this (Nat.mul_comm B N))⟩ : Fin B)
          (⟨o.val % N, Nat.mod_lt _ hN⟩ : Fin N)) := by
  refine shapeCast_apply x h _ _ ?_
  rewrite [Shape.rowMajor_val_three, Shape.rowMajor_val_two]
  show (a.val * B + o.val / N) * N + o.val % N = a.val * M + o.val
  subst hM
  have := Nat.div_add_mod' o.val N
  nlinarith [this]

/-- A reshape to the same shape is the identity. -/
theorem same_at {α : Type} {s : Shape} (x : s.Idx → α) (h : s.ShapeCasts s) (j : s.Idx) :
    shapeCast s x h j = x j :=
  shapeCast_apply x h j j rfl

end Cert.LibReshapeAxes

end
-- ==== Proof.LibBatchedMatmul.lean ====
/-
  A batched matrix product with both operands contracted on their last axis, into a zero accumulator, read at an
  index written by coordinates.

  For dimension numbers with one batch axis in front, `[B, M, K] · [B, N, K] → [B, M, N]` (each batch entry is
  `lhs · rhsᵀ`), the product accumulated into the zero splat reads, at `(b, m, n)`, `Σ_k lhs (b, m, k) · rhs (b, n, k)`
  over the `K` values of the contracted coordinate: the accumulator contributes `0`, and the sum over the one-axis
  contraction index is re-indexed by that axis's coordinate. The dimension numbers enter only through six facts about
  where they send an output index and a contraction index, which hold by unfolding for any record of this form.
  General: nothing here mentions a program.
-/
import Idealize.ShloMosaic.PureOps.Ideal.Laws
import Idealize.ShloMosaic.Lib.ValueIdx

noncomputable section

namespace Cert.LibBatchedMatmul

open Idealize.ShloMosaic Idealize.ShloMosaic.ValueIdx

/-- `[B, M, K] · [B, N, K]` into the zero splat, at `(b, m, n)`, is `Σ_k lhs (b, m, k) · rhs (b, n, k)`. -/
theorem matmul_nt_zero_at {B M N K : ℕ} {φ₁ φ₂ : FTy}
    (D : DotDims ⟨3, ![B, M, K]⟩ ⟨3, ![B, N, K]⟩ ⟨3, ![B, M, N]⟩) (prec : Option ContractPrecision)
    (hr : D.contr.rank = 1) (hs : D.contr.size ⟨0, by omega⟩ = K)
    (hl0 : ∀ (i : (⟨3, ![B, M, N]⟩ : Shape).Idx) (q : D.contr.Idx), (D.lhsIdx i q 0).val = (i 0).val)
    (hl1 : ∀ (i : (⟨3, ![B, M, N]⟩ : Shape).Idx) (q : D.contr.Idx), (D.lhsIdx i q 1).val = (i 1).val)
    (hl2 : ∀ (i : (⟨3, ![B, M, N]⟩ : Shape).Idx) (q : D.contr.Idx), (D.lhsIdx i q 2).val = (q ⟨0, by omega⟩).val)
    (hr0 : ∀ (i : (⟨3, ![B, M, N]⟩ : Shape).Idx) (q : D.contr.Idx), (D.rhsIdx i q 0).val = (i 0).val)
    (hr1 : ∀ (i : (⟨3, ![B, M, N]⟩ : Shape).Idx) (q : D.contr.Idx), (D.rhsIdx i q 1).val = (i 2).val)
    (hr2 : ∀ (i : (⟨3, ![B, M, N]⟩ : Shape).Idx) (q : D.contr.Idx), (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    FloatOps.matmul D prec lhs rhs (constant ⟨3, ![B, M, N]⟩ .f32 0x00000000#32) (ix3 b m n)
      = ∑ k : Fin K, lhs (ix3 b m k) * rhs (ix3 b n k) := by
  rw [Ideal.matmul_constant_zero_apply, ← Equiv.sum_comp (contrEquiv1 D K hr hs).symm]
  refine Finset.sum_congr rfl fun k _ => ?_
  have hk := contrEquiv1_symm_val D K hr hs k
  have el : D.lhsIdx (ix3 b m n) ((contrEquiv1 D K hr hs).symm k) = ix3 b m k := funext fun a => Fin.ext (by
    match a with
    | ⟨0, _⟩ => exact hl0 _ _
    | ⟨1, _⟩ => exact hl1 _ _
    | ⟨2, _⟩ => exact (hl2 _ _).trans hk)
  have er : D.rhsIdx (ix3 b m n) ((contrEquiv1 D K hr hs).symm k) = ix3 b n k := funext fun a => Fin.ext (by
    match a with
    | ⟨0, _⟩ => exact hr0 _ _
    | ⟨1, _⟩ => exact hr1 _ _
    | ⟨2, _⟩ => exact (hr2 _ _).trans hk)
  rw [el, er]

end Cert.LibBatchedMatmul

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibSumAxis2.lean ====
/-
  A sum over the third axis of a rank-4 vector, read at an index written by coordinates.

  At the exact values a `vector.multi_reduction <add>` over axis 2 of `[A, B, K, P]`, from the additive neutral, reads
  at `(a, b, p)` as `Σ_k src (a, b, k, p)`: the reduced index with the dropped coordinate put back at position 2.
  General: nothing here mentions a program.
-/
import Idealize.ShloMosaic.PureOps.Ideal.Laws
import Idealize.ShloMosaic.Lib.ValueIdx

noncomputable section

namespace Cert.LibSumAxis2

open Idealize.ShloMosaic Idealize.ShloMosaic.ValueIdx

/-- The reduced index `(a, b, p)` with coordinate `k` put back on axis 2 is `(a, b, k, p)`. -/
theorem lift_ix4 {A B K P : ℕ} (h : (⟨4, ![A, B, K, P]⟩ : Shape).Reduces [2] (⟨3, ![A, B, P]⟩ : Shape))
    (a : Fin A) (b : Fin B) (p : Fin P) (k : Fin ((⟨4, ![A, B, K, P]⟩ : Shape).size 2)) :
    h.lift (ix3 a b p) k = ix4 a b (⟨k.val, k.isLt⟩ : Fin K) p := by
  funext c; apply Fin.ext
  fin_cases c <;> rfl

/-- The sum over axis 2, at `(a, b, p)`. -/
theorem sum_axis2_at {A B K P : ℕ} {φ : FTy} (src : FVec Ideal ⟨4, ![A, B, K, P]⟩ φ) (acc : BitVec φ.bits)
    (h : (⟨4, ![A, B, K, P]⟩ : Shape).Reduces [2] (⟨3, ![A, B, P]⟩ : Shape)) (hφ : FKind.Formats φ)
    (hacc : acc = FKind.add.neutral φ hφ) (a : Fin A) (b : Fin B) (p : Fin P) :
    multiReduction .add [2] ⟨3, ![A, B, P]⟩ src acc h hφ hacc (ix3 a b p) = ∑ k : Fin K, src (ix4 a b k p) := by
  refine (Ideal.multiReduction_add_single src acc h hφ hacc (ix3 a b p)).trans ?_
  exact Finset.sum_congr rfl fun k _ => congrArg src (lift_ix4 h a b p k)

end Cert.LibSumAxis2

end
-- ==== Proof.Payload0.lean ====
/-
  Region 0's body as arithmetic: what the kernel stores at entry `(b, r, j)` of its output block, from the entries of
  its input block `x : [224, 512, 9]` (224 patches, 512 channels, 9 positions) and the pooling matrix `v : [64, 16]`.

  Reading the body's chain of operations from the store backwards: the stored vector is the `[14336, 16]` product
  regrouped as `[224, 64, 16]`, so entry `(b, r, j)` is row `64 b + r` of the product, `Σ_s g (64 b + r, s) · v (s, j)`;
  `g` is the `[224, 64, 64]` Gram vector regrouped as `[14336, 64]`, so `g (64 b + r, s)` is Gram entry `(b, r, s)`,
  the batched product `Σ_p f (b, r, p) · f (b, s, p)` divided by the constant 9; and `f (b, r, p)` is the sum over the
  8 channels `8 r + a` of group `r`, times the constant 1/8. Changes of float format are the identity on exact values.
-/
import proofs.«103834_j81587198755295_1_alg».proof.Proof.Gen.KernelIdeal.Skeleton
import proofs.«103834_j81587198755295_1_alg».proof.Proof.LibReshapeAxes
import proofs.«103834_j81587198755295_1_alg».proof.Proof.LibBatchedMatmul
import proofs.«103834_j81587198755295_1_alg».proof.Proof.LibPlainMatmul
import proofs.«103834_j81587198755295_1_alg».proof.Proof.LibSumAxis2
import Idealize.ShloMosaic.Lib.ValueIdx
import Idealize.ShloMosaic.PureOps.Ideal.Laws

noncomputable section

namespace Cert.KernelIdeal.Payload0

open Cert.KernelIdeal Cert.KernelIdeal.Gen Idealize.ShloMosaic Idealize.ShloMosaic.ValueIdx Cert.LibReshapeAxes

/-- The batched product's dimension numbers: batch axis 0, both operands contracted on axis 2. -/
abbrev gramDot := dot_S224x64x9_S224x64x9_S224x64x64_2_2_1_1_0_0
/-- The pooling product's dimension numbers: a plain matrix product. -/
abbrev poolDot := dot_S14336x64_S64x16_S14336x16_1_0_0_1_n_n

theorem gl0 (i : S224x64x64.Idx) (q : gramDot.contr.Idx) : (gramDot.lhsIdx i q 0).val = (i 0).val := by
  unfold DotDims.lhsIdx
  rw [dif_pos (show (0 : Fin S224x64x9.rank) ∈ gramDot.lhsBatch by decide)]
  rfl
theorem gl1 (i : S224x64x64.Idx) (q : gramDot.contr.Idx) : (gramDot.lhsIdx i q 1).val = (i 1).val := by
  unfold DotDims.lhsIdx
  rw [dif_neg (show ¬(1 : Fin S224x64x9.rank) ∈ gramDot.lhsBatch by decide), dif_pos (show (1 : Fin S224x64x9.rank) ∈ gramDot.lhsNonContracting by decide)]
  rfl
theorem gl2 (i : S224x64x64.Idx) (q : gramDot.contr.Idx) : (gramDot.lhsIdx i q 2).val = (q ⟨0, by decide⟩).val :=
  gramDot.lhsIdx_val_of_single rfl i q
theorem gr0 (i : S224x64x64.Idx) (q : gramDot.contr.Idx) : (gramDot.rhsIdx i q 0).val = (i 0).val := by
  unfold DotDims.rhsIdx
  rw [dif_pos (show (0 : Fin S224x64x9.rank) ∈ gramDot.rhsBatch by decide)]
  rfl
theorem gr1 (i : S224x64x64.Idx) (q : gramDot.contr.Idx) : (gramDot.rhsIdx i q 1).val = (i 2).val := by
  unfold DotDims.rhsIdx
  rw [dif_neg (show ¬(1 : Fin S224x64x9.rank) ∈ gramDot.rhsBatch by decide), dif_pos (show (1 : Fin S224x64x9.rank) ∈ gramDot.rhsNonContracting by decide)]
  rfl
theorem gr2 (i : S224x64x64.Idx) (q : gramDot.contr.Idx) : (gramDot.rhsIdx i q 2).val = (q ⟨0, by decide⟩).val :=
  gramDot.rhsIdx_val_of_single rfl i q

theorem pl0 (i : S14336x16.Idx) (q : poolDot.contr.Idx) : (poolDot.lhsIdx i q 0).val = (i 0).val := by
  unfold DotDims.lhsIdx
  rw [dif_neg (show ¬(0 : Fin S14336x64.rank) ∈ poolDot.lhsBatch by decide), dif_pos (show (0 : Fin S14336x64.rank) ∈ poolDot.lhsNonContracting by decide)]
  rfl
theorem pl1 (i : S14336x16.Idx) (q : poolDot.contr.Idx) : (poolDot.lhsIdx i q 1).val = (q ⟨0, by decide⟩).val :=
  poolDot.lhsIdx_val_of_single rfl i q
theorem pr0 (i : S14336x16.Idx) (q : poolDot.contr.Idx) : (poolDot.rhsIdx i q 0).val = (q ⟨0, by decide⟩).val :=
  poolDot.rhsIdx_val_of_single rfl i q
theorem pr1 (i : S14336x16.Idx) (q : poolDot.contr.Idx) : (poolDot.rhsIdx i q 1).val = (i 1).val := by
  unfold DotDims.rhsIdx
  rw [dif_neg (show ¬(1 : Fin S64x16.rank) ∈ poolDot.rhsBatch by decide), dif_pos (show (1 : Fin S64x16.rank) ∈ poolDot.rhsNonContracting by decide)]
  rfl

/-- 512 channels are 64 groups of 8. -/
theorem hC : 512 = 64 * 8 := rfl
/-- 14336 rows are 224 patches of 64. -/
theorem hM : 14336 = 224 * 64 := rfl

/-- The scaled group sum `f (b, r, p)`: the body's reshape to `[224, 64, 8, 9]`, its sum over axis 2 and its scaling. -/
theorem mean_at (x : FVec Ideal S224x512x9 .f32) (hφ : FKind.Formats .f32) (hacc : (0x00000000#32 : BitVec FTy.f32.bits) = FKind.add.neutral .f32 hφ) (b : Fin 224) (t : Fin 64) (p : Fin 9) :
    (truncf .bf16
      (mulf
        (multiReduction .add [2] S224x64x9
          (shapeCast S224x64x8x9 (shapeCast S224x512x9 x shapeCasts_S224x512x9_S224x512x9) shapeCasts_S224x512x9_S224x64x8x9)
          0x00000000#32 reduces_S224x64x8x9_S224x64x9 hφ hacc)
        (broadcast S224x64x9 (FloatOps.ofBits .f32 0x3E000000#32)))
      bitsLt_bf16_f32 : FVec Ideal S224x64x9 .bf16) (ix3 b t p)
    = (∑ a : Fin 8, x (ix3 b (mid hC t a) p)) * Ideal.ofBits .f32 0x3E000000#32 := by
  show multiReduction .add [2] S224x64x9 _ 0x00000000#32 reduces_S224x64x8x9_S224x64x9 hφ hacc (ix3 b t p) * Ideal.ofBits .f32 0x3E000000#32 = _
  refine congrArg (· * Ideal.ofBits .f32 0x3E000000#32) ?_
  refine (Cert.LibSumAxis2.sum_axis2_at _ 0x00000000#32 reduces_S224x64x8x9_S224x64x9 hφ hacc b t p).trans ?_
  refine Finset.sum_congr rfl fun a _ => ?_
  refine (split_middle_at _ shapeCasts_S224x512x9_S224x64x8x9 hC b t a p).trans ?_
  exact same_at x shapeCasts_S224x512x9_S224x512x9 _

/-- Entry `(r, j)` of one patch's result, from that patch's `512 × 9` feature values `xr` and the pooling matrix: the row of
    64 Gram entries against column `j`. -/
def rowForm (xr : Fin 512 → Fin 9 → EReal) (v : FVec Ideal S64x16 .f32) (r : Fin 64) (j : Fin 16) : EReal :=
  ∑ s : Fin 64,
    Ideal.div (∑ p : Fin 9, ((∑ a : Fin 8, xr (mid hC r a) p) * Ideal.ofBits .f32 0x3E000000#32)
        * ((∑ a : Fin 8, xr (mid hC s a) p) * Ideal.ofBits .f32 0x3E000000#32)) (Ideal.ofBits .f32 0x41100000#32)
      * v (ix2 s j)

/-- Entry `(b, r, j)` of the stored block, spelt out. -/
theorem pay_at_sums (x : FVec Ideal S224x512x9 .f32) (v : FVec Ideal S64x16 .f32) (b : Fin 224) (r : Fin 64) (j : Fin 16) :
    k0_pay1 (F := Ideal) x v (ix3 b r j)
      = ∑ s : Fin 64,
          Ideal.div (∑ p : Fin 9, ((∑ a : Fin 8, x (ix3 b (mid hC r a) p)) * Ideal.ofBits .f32 0x3E000000#32)
              * ((∑ a : Fin 8, x (ix3 b (mid hC s a) p)) * Ideal.ofBits .f32 0x3E000000#32)) (Ideal.ofBits .f32 0x41100000#32)
            * v (ix2 s j) := by
  unfold k0_pay1
  refine (split_leading_at _ shapeCasts_S14336x16_S224x64x16 hM b r j).trans ?_
  refine (Cert.LibPlainMatmul.matmul_zero_at poolDot none rfl rfl pl0 pl1 pr0 pr1 _ _ (lead hM b r) j).trans ?_
  refine Finset.sum_congr rfl fun s _ => ?_
  refine congrArg (· * v (ix2 s j)) ?_
  refine (truncf_apply (ψ := .bf16) _ bitsLt_bf16_f32 _).trans ?_
  refine (merge_leading_at _ shapeCasts_S224x64x64_S14336x64 hM b r s).trans ?_
  refine (divf_apply _ _ _).trans ?_
  refine congrArg₂ Ideal.div ?_ rfl
  refine (Cert.LibBatchedMatmul.matmul_nt_zero_at gramDot none rfl rfl gl0 gl1 gl2 gr0 gr1 gr2 _ _ b r s).trans ?_
  refine Finset.sum_congr rfl fun p _ => ?_
  exact congrArg₂ (· * ·) (mean_at x _ _ b r p) (mean_at x _ _ b s p)

/-- Entry `(b, r, j)` of the stored block depends on patch `b`'s row of the input block only. -/
theorem pay_at (x : FVec Ideal S224x512x9 .f32) (v : FVec Ideal S64x16 .f32) (b : Fin 224) (r : Fin 64) (j : Fin 16) :
    k0_pay1 (F := Ideal) x v (ix3 b r j) = rowForm (fun ch p => x (ix3 b ch p)) v r j :=
  pay_at_sums x v b r j

end Cert.KernelIdeal.Payload0

end
-- ==== Proof.Blocks0.lean ====
/-
  Region 0: from what each grid point writes back to the whole output array.

  The grid has 28 points; point `t` reads patches `224 t … 224 t + 223` of the `[6272, 512, 9]` input (all channels and
  positions), reads the whole pooling matrix, and writes patches `224 t … 224 t + 223` of the `[6272, 64, 16]` output.
  A stored entry depends on its own patch's input row only (`Payload0.pay_at`), so what point `t` writes at
  `(b, r, j)` is the array function `arr` at `(224 t + b, r, j)`. Every patch `n` lies in the block of point `n / 224`,
  so the 28 blocks cover the output, which therefore ends holding `arr` of the arrays the region found.
  All of this is at any contents `V` of the buffers at region entry.
-/
import proofs.«103834_j81587198755295_1_alg».proof.Proof.Gen.KernelIdeal.Frame
import proofs.«103834_j81587198755295_1_alg».proof.Proof.Payload0
import Idealize.ShloMosaic.Lib.Pipeline.Value
import Idealize.ShloMosaic.Lib.Tactic

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx Cert.LibReshapeAxes
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem hN : cfg0.N = 28 := N_0

/-- The printed index maps, decided over the grid: the input and output blocks of point `t` are block `t` along the
    patch axis and block 0 along the others; the pooling matrix is always its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The output array as a function of the input array and the pooling matrix: entry `(n, r, j)` from patch `n`'s row. -/
def arr (X : FVec Ideal S6272x512x9 .f32) (v : FVec Ideal S64x16 .f32) : FVec Ideal S6272x64x16 .f32 := fun i =>
  Payload0.rowForm (fun ch p => X (ix3 ⟨(i 0).val, (i 0).isLt⟩ ch p)) v ⟨(i 1).val, (i 1).isLt⟩ ⟨(i 2).val, (i 2).isLt⟩

theorem arr_at (X : FVec Ideal S6272x512x9 .f32) (v : FVec Ideal S64x16 .f32) (n : Fin 6272) (r : Fin 64) (j : Fin 16) :
    arr X v (ix3 n r j) = Payload0.rowForm (fun ch p => X (ix3 n ch p)) v r j := rfl

/-- One point, over plain vectors: if the input block `x` is patches `224 T …` of `X` and the matrix block is `v`, the
    stored entry at `y` is `arr` at the index `k` with the patch coordinate shifted by `224 T`. -/
theorem point_eq (X : FVec Ideal S6272x512x9 .f32) (v : FVec Ideal S64x16 .f32) (x : FVec Ideal S224x512x9 .f32)
    (v' : FVec Ideal S64x16 .f32) (T : ℕ) (hT : T < 28)
    (hx : ∀ (b : Fin 224) (ch : Fin 512) (p : Fin 9), x (ix3 b ch p) = X (ix3 ⟨T * 224 + b.val, by have := b.isLt; omega⟩ ch p))
    (hv : v' = v) (y : S224x64x16.Idx) (k : S6272x64x16.Idx)
    (hk0 : (k 0).val = T * 224 + (y 0).val) (hk1 : (k 1).val = (y 1).val) (hk2 : (k 2).val = (y 2).val) :
    k0_pay1 (F := Ideal) x v' y = arr X v k := by
  subst hv
  obtain ⟨b, r, j, rfl⟩ : ∃ (b : Fin 224) (r : Fin 64) (j : Fin 16), y = ix3 b r j := ⟨y 0, y 1, y 2, eq_ix3 y⟩
  rw [Payload0.pay_at]
  unfold arr
  have e0 : (⟨(k 0).val, (k 0).isLt⟩ : Fin 6272) = ⟨T * 224 + b.val, by have := b.isLt; omega⟩ := Fin.ext hk0
  have e1 : (⟨(k 1).val, (k 1).isLt⟩ : Fin 64) = r := Fin.ext hk1
  have e2 : (⟨(k 2).val, (k 2).isLt⟩ : Fin 16) = j := Fin.ext hk2
  rw [e0, e1, e2]
  congr 1
  funext ch p
  exact hx b ch p

/-- The input block at point `t`, entry `(b, ch, p)`, is the input array at `(224 t + b, ch, p)`. -/
theorem in_block (c : Dev nD) (t : Fin cfg0.N) (b : Fin 224) (ch : Fin 512) (p : Fin 9) :
    (iblk0 V c 0 t : S224x512x9.Idx → Elt Ideal .f32) (ix3 b ch p)
      = (V c main_v0 : S6272x512x9.Idx → Elt Ideal .f32) (ix3 ⟨t.val * 224 + b.val, by have := b.isLt; have := t.isLt; have := hN; omega⟩ ch p) := by
  obtain ⟨e0, e1, e2, -, -, -, -, -⟩ := idx_facts t
  unfold iblk0
  rw [View.read_apply]
  show V c main_v0 _ = V c main_v0 _
  congr 1
  funext a
  apply Fin.ext
  match a with
  | ⟨0, _⟩ => show win0_0.index t (0 : Fin 3) * 224 + 1 * b.val = t.val * 224 + b.val; rw [e0]; omega
  | ⟨1, _⟩ => show win0_0.index t (1 : Fin 3) * 512 + 1 * ch.val = ch.val; rw [e1]; omega
  | ⟨2, _⟩ => show win0_0.index t (2 : Fin 3) * 9 + 1 * p.val = p.val; rw [e2]; omega

/-- The pooling matrix's block at any point is the whole matrix. -/
theorem mat_block (c : Dev nD) (t : Fin cfg0.N) :
    (iblk0 V c 1 t : S64x16.Idx → Elt Ideal .f32) = (V c main_cst : S64x16.Idx → Elt Ideal .f32) := by
  obtain ⟨-, -, -, e3, e4, -, -, -⟩ := idx_facts t
  funext z
  unfold iblk0
  rw [View.read_apply]
  show V c main_cst _ = V c main_cst _
  congr 1
  funext a
  apply Fin.ext
  match a with
  | ⟨0, _⟩ => show win0_1.index t (0 : Fin 2) * 64 + 1 * (z 0).val = (z 0).val; rw [e3]; omega
  | ⟨1, _⟩ => show win0_1.index t (1 : Fin 2) * 16 + 1 * (z 1).val = (z 1).val; rw [e4]; omega

/-- What point `t` writes back is block `t` of `arr` of the arrays the region found. -/
theorem flushed_eq (c : Dev nD) (t : Fin cfg0.N) :
    (dat0 V c).flushed 2 t = ((cfg0.win 2).blk t).view.read (Elt Ideal)
      (arr (V c main_v0 : S6272x512x9.Idx → Elt Ideal .f32) (V c main_cst : S64x16.Idx → Elt Ideal .f32)) := by
  show (cfg0.win 2).cut (grid0.coords t) ((dat0 V c).after 2 t) = _
  rw [after0_2]
  unfold out0_2
  rw [View.canon_unit_zero hz3]
  simp only [View.ld_unit_zero (S := S224x512x9) hz3, View.ld_unit_zero (S := S64x16) hz2]
  obtain ⟨-, -, -, -, -, e5, e6, e7⟩ := idx_facts t
  funext y
  show k0_pay1 (F := Ideal) (iblk0 V c 0 t) (iblk0 V c 1 t) y = arr _ _ (((cfg0.win 2).blk t).view.emb y)
  refine point_eq (V c main_v0 : S6272x512x9.Idx → Elt Ideal .f32) (V c main_cst : S64x16.Idx → Elt Ideal .f32)
    (iblk0 V c 0 t) (iblk0 V c 1 t) t.val (by have := t.isLt; have := hN; omega)
    (fun b ch p => in_block V c t b ch p) (mat_block V c t) y _ ?_ ?_ ?_
  · show win0_2.index t (0 : Fin 3) * 224 + 1 * (y 0).val = t.val * 224 + (y 0).val; rw [e5]; omega
  · show win0_2.index t (1 : Fin 3) * 64 + 1 * (y 1).val = (y 1).val; rw [e6]; omega
  · show win0_2.index t (2 : Fin 3) * 16 + 1 * (y 2).val = (y 2).val; rw [e7]; omega

/-- An index of the output array is in point `t`'s block iff each coordinate is in the block's range on its axis. -/
theorem mem_blk (t : Fin cfg0.N) (i : S6272x64x16.Idx) :
    i ∈ ((cfg0.win 2).blk t).view.set ↔ ∀ a : Fin 3, win0_2.index t a * S224x64x16.size a ≤ (i a).val ∧ (i a).val < win0_2.index t a * S224x64x16.size a + S224x64x16.size a := by
  show i ∈ ((View.whole main_v1).slice (win0_2.rect t)).set ↔ _
  rw [View.set_slice_whole, Rect.mem_set_unit]
  exact Iff.rfl

/-- Every index of the output array is in the block of the point its patch coordinate names. -/
theorem cover (i : S6272x64x16.Idx) :
    ∃ t : Fin cfg0.N, (cfg0.win 2).flush t = true ∧ i ∈ ((cfg0.win 2).blk t).view.set := by
  have hi0 : (i 0).val < 6272 := (i 0).isLt
  have hi1 : (i 1).val < 64 := (i 1).isLt
  have hi2 : (i 2).val < 16 := (i 2).isLt
  have hlt : (i 0).val / 224 < cfg0.N := by rw [hN]; omega
  obtain ⟨-, -, -, -, -, e5, e6, e7⟩ := idx_facts ⟨(i 0).val / 224, hlt⟩
  refine ⟨⟨(i 0).val / 224, hlt⟩, flush0_2 _, ?_⟩
  rw [mem_blk]
  intro a
  match a with
  | ⟨0, _⟩ => show win0_2.index ⟨(i 0).val / 224, hlt⟩ (0 : Fin 3) * 224 ≤ (i 0).val ∧ (i 0).val < win0_2.index ⟨(i 0).val / 224, hlt⟩ (0 : Fin 3) * 224 + 224; rw [e5]; show (i 0).val / 224 * 224 ≤ (i 0).val ∧ (i 0).val < (i 0).val / 224 * 224 + 224; omega
  | ⟨1, _⟩ => show win0_2.index ⟨(i 0).val / 224, hlt⟩ (1 : Fin 3) * 64 ≤ (i 1).val ∧ (i 1).val < win0_2.index ⟨(i 0).val / 224, hlt⟩ (1 : Fin 3) * 64 + 64; rw [e6]; omega
  | ⟨2, _⟩ => show win0_2.index ⟨(i 0).val / 224, hlt⟩ (2 : Fin 3) * 16 ≤ (i 2).val ∧ (i 2).val < win0_2.index ⟨(i 0).val / 224, hlt⟩ (2 : Fin 3) * 16 + 16; rw [e7]; omega

/-- The output array after the region: `arr` of the input array and the pooling matrix as the region found them. -/
theorem final (c : Dev nD) :
    (dat0 V c).arrAt 2 cfg0.N
      = arr (V c main_v0 : S6272x512x9.Idx → Elt Ideal .f32) (V c main_cst : S64x16.Idx → Elt Ideal .f32) :=
  (dat0 V c).arrAt_eq_of_cover 2 _ (fun t _ => flushed_eq V c t) cover

end Cert.KernelIdeal.Blocks0

end
-- ==== Proof.Payload1.lean ====
/-
  Region 1's body as arithmetic: what the kernel stores at entry `(b, r, j)` of its output block, from the entries of
  its input block `x : [224, 1024, 9]` (224 patches, 1024 channels, 9 positions) and the pooling matrix `v : [64, 16]`.

  Reading the body's chain of operations from the store backwards: the stored vector is the `[14336, 16]` product
  regrouped as `[224, 64, 16]`, so entry `(b, r, j)` is row `64 b + r` of the product, `Σ_s g (64 b + r, s) · v (s, j)`;
  `g` is the `[224, 64, 64]` Gram vector regrouped as `[14336, 64]`, so `g (64 b + r, s)` is Gram entry `(b, r, s)`,
  the batched product `Σ_p f (b, r, p) · f (b, s, p)` divided by the constant 9; and `f (b, r, p)` is the sum over the
  16 channels `16 r + a` of group `r`, times the constant 1/16. Changes of float format are the identity on exact values.
-/
import proofs.«103834_j81587198755295_1_alg».proof.Proof.Gen.KernelIdeal.Skeleton
import proofs.«103834_j81587198755295_1_alg».proof.Proof.LibReshapeAxes
import proofs.«103834_j81587198755295_1_alg».proof.Proof.LibBatchedMatmul
import proofs.«103834_j81587198755295_1_alg».proof.Proof.LibPlainMatmul
import proofs.«103834_j81587198755295_1_alg».proof.Proof.LibSumAxis2
import Idealize.ShloMosaic.Lib.ValueIdx
import Idealize.ShloMosaic.PureOps.Ideal.Laws

noncomputable section

namespace Cert.KernelIdeal.Payload1

open Cert.KernelIdeal Cert.KernelIdeal.Gen Idealize.ShloMosaic Idealize.ShloMosaic.ValueIdx Cert.LibReshapeAxes

/-- The batched product's dimension numbers: batch axis 0, both operands contracted on axis 2. -/
abbrev gramDot := dot_S224x64x9_S224x64x9_S224x64x64_2_2_1_1_0_0
/-- The pooling product's dimension numbers: a plain matrix product. -/
abbrev poolDot := dot_S14336x64_S64x16_S14336x16_1_0_0_1_n_n

theorem gl0 (i : S224x64x64.Idx) (q : gramDot.contr.Idx) : (gramDot.lhsIdx i q 0).val = (i 0).val := by
  unfold DotDims.lhsIdx
  rw [dif_pos (show (0 : Fin S224x64x9.rank) ∈ gramDot.lhsBatch by decide)]
  rfl
theorem gl1 (i : S224x64x64.Idx) (q : gramDot.contr.Idx) : (gramDot.lhsIdx i q 1).val = (i 1).val := by
  unfold DotDims.lhsIdx
  rw [dif_neg (show ¬(1 : Fin S224x64x9.rank) ∈ gramDot.lhsBatch by decide), dif_pos (show (1 : Fin S224x64x9.rank) ∈ gramDot.lhsNonContracting by decide)]
  rfl
theorem gl2 (i : S224x64x64.Idx) (q : gramDot.contr.Idx) : (gramDot.lhsIdx i q 2).val = (q ⟨0, by decide⟩).val :=
  gramDot.lhsIdx_val_of_single rfl i q
theorem gr0 (i : S224x64x64.Idx) (q : gramDot.contr.Idx) : (gramDot.rhsIdx i q 0).val = (i 0).val := by
  unfold DotDims.rhsIdx
  rw [dif_pos (show (0 : Fin S224x64x9.rank) ∈ gramDot.rhsBatch by decide)]
  rfl
theorem gr1 (i : S224x64x64.Idx) (q : gramDot.contr.Idx) : (gramDot.rhsIdx i q 1).val = (i 2).val := by
  unfold DotDims.rhsIdx
  rw [dif_neg (show ¬(1 : Fin S224x64x9.rank) ∈ gramDot.rhsBatch by decide), dif_pos (show (1 : Fin S224x64x9.rank) ∈ gramDot.rhsNonContracting by decide)]
  rfl
theorem gr2 (i : S224x64x64.Idx) (q : gramDot.contr.Idx) : (gramDot.rhsIdx i q 2).val = (q ⟨0, by decide⟩).val :=
  gramDot.rhsIdx_val_of_single rfl i q

theorem pl0 (i : S14336x16.Idx) (q : poolDot.contr.Idx) : (poolDot.lhsIdx i q 0).val = (i 0).val := by
  unfold DotDims.lhsIdx
  rw [dif_neg (show ¬(0 : Fin S14336x64.rank) ∈ poolDot.lhsBatch by decide), dif_pos (show (0 : Fin S14336x64.rank) ∈ poolDot.lhsNonContracting by decide)]
  rfl
theorem pl1 (i : S14336x16.Idx) (q : poolDot.contr.Idx) : (poolDot.lhsIdx i q 1).val = (q ⟨0, by decide⟩).val :=
  poolDot.lhsIdx_val_of_single rfl i q
theorem pr0 (i : S14336x16.Idx) (q : poolDot.contr.Idx) : (poolDot.rhsIdx i q 0).val = (q ⟨0, by decide⟩).val :=
  poolDot.rhsIdx_val_of_single rfl i q
theorem pr1 (i : S14336x16.Idx) (q : poolDot.contr.Idx) : (poolDot.rhsIdx i q 1).val = (i 1).val := by
  unfold DotDims.rhsIdx
  rw [dif_neg (show ¬(1 : Fin S64x16.rank) ∈ poolDot.rhsBatch by decide), dif_pos (show (1 : Fin S64x16.rank) ∈ poolDot.rhsNonContracting by decide)]
  rfl

/-- 1024 channels are 64 groups of 16. -/
theorem hC : 1024 = 64 * 16 := rfl
/-- 14336 rows are 224 patches of 64. -/
theorem hM : 14336 = 224 * 64 := rfl

/-- The scaled group sum `f (b, r, p)`: the body's reshape to `[224, 64, 16, 9]`, its sum over axis 2 and its scaling. -/
theorem mean_at (x : FVec Ideal S224x1024x9 .f32) (hφ : FKind.Formats .f32) (hacc : (0x00000000#32 : BitVec FTy.f32.bits) = FKind.add.neutral .f32 hφ) (b : Fin 224) (t : Fin 64) (p : Fin 9) :
    (truncf .bf16
      (mulf
        (multiReduction .add [2] S224x64x9
          (shapeCast S224x64x16x9 (shapeCast S224x1024x9 x shapeCasts_S224x1024x9_S224x1024x9) shapeCasts_S224x1024x9_S224x64x16x9)
          0x00000000#32 reduces_S224x64x16x9_S224x64x9 hφ hacc)
        (broadcast S224x64x9 (FloatOps.ofBits .f32 0x3D800000#32)))
      bitsLt_bf16_f32 : FVec Ideal S224x64x9 .bf16) (ix3 b t p)
    = (∑ a : Fin 16, x (ix3 b (mid hC t a) p)) * Ideal.ofBits .f32 0x3D800000#32 := by
  show multiReduction .add [2] S224x64x9 _ 0x00000000#32 reduces_S224x64x16x9_S224x64x9 hφ hacc (ix3 b t p) * Ideal.ofBits .f32 0x3D800000#32 = _
  refine congrArg (· * Ideal.ofBits .f32 0x3D800000#32) ?_
  refine (Cert.LibSumAxis2.sum_axis2_at _ 0x00000000#32 reduces_S224x64x16x9_S224x64x9 hφ hacc b t p).trans ?_
  refine Finset.sum_congr rfl fun a _ => ?_
  refine (split_middle_at _ shapeCasts_S224x1024x9_S224x64x16x9 hC b t a p).trans ?_
  exact same_at x shapeCasts_S224x1024x9_S224x1024x9 _

/-- Entry `(r, j)` of one patch's result, from that patch's `1024 × 9` feature values `xr` and the pooling matrix: the row of
    64 Gram entries against column `j`. -/
def rowForm (xr : Fin 1024 → Fin 9 → EReal) (v : FVec Ideal S64x16 .f32) (r : Fin 64) (j : Fin 16) : EReal :=
  ∑ s : Fin 64,
    Ideal.div (∑ p : Fin 9, ((∑ a : Fin 16, xr (mid hC r a) p) * Ideal.ofBits .f32 0x3D800000#32)
        * ((∑ a : Fin 16, xr (mid hC s a) p) * Ideal.ofBits .f32 0x3D800000#32)) (Ideal.ofBits .f32 0x41100000#32)
      * v (ix2 s j)

/-- Entry `(b, r, j)` of the stored block, spelt out. -/
theorem pay_at_sums (x : FVec Ideal S224x1024x9 .f32) (v : FVec Ideal S64x16 .f32) (b : Fin 224) (r : Fin 64) (j : Fin 16) :
    k1_pay1 (F := Ideal) x v (ix3 b r j)
      = ∑ s : Fin 64,
          Ideal.div (∑ p : Fin 9, ((∑ a : Fin 16, x (ix3 b (mid hC r a) p)) * Ideal.ofBits .f32 0x3D800000#32)
              * ((∑ a : Fin 16, x (ix3 b (mid hC s a) p)) * Ideal.ofBits .f32 0x3D800000#32)) (Ideal.ofBits .f32 0x41100000#32)
            * v (ix2 s j) := by
  unfold k1_pay1
  refine (split_leading_at _ shapeCasts_S14336x16_S224x64x16 hM b r j).trans ?_
  refine (Cert.LibPlainMatmul.matmul_zero_at poolDot none rfl rfl pl0 pl1 pr0 pr1 _ _ (lead hM b r) j).trans ?_
  refine Finset.sum_congr rfl fun s _ => ?_
  refine congrArg (· * v (ix2 s j)) ?_
  refine (truncf_apply (ψ := .bf16) _ bitsLt_bf16_f32 _).trans ?_
  refine (merge_leading_at _ shapeCasts_S224x64x64_S14336x64 hM b r s).trans ?_
  refine (divf_apply _ _ _).trans ?_
  refine congrArg₂ Ideal.div ?_ rfl
  refine (Cert.LibBatchedMatmul.matmul_nt_zero_at gramDot none rfl rfl gl0 gl1 gl2 gr0 gr1 gr2 _ _ b r s).trans ?_
  refine Finset.sum_congr rfl fun p _ => ?_
  exact congrArg₂ (· * ·) (mean_at x _ _ b r p) (mean_at x _ _ b s p)

/-- Entry `(b, r, j)` of the stored block depends on patch `b`'s row of the input block only. -/
theorem pay_at (x : FVec Ideal S224x1024x9 .f32) (v : FVec Ideal S64x16 .f32) (b : Fin 224) (r : Fin 64) (j : Fin 16) :
    k1_pay1 (F := Ideal) x v (ix3 b r j) = rowForm (fun ch p => x (ix3 b ch p)) v r j :=
  pay_at_sums x v b r j

end Cert.KernelIdeal.Payload1

end
-- ==== Proof.Blocks1.lean ====
/-
  Region 1: from what each grid point writes back to the whole output array.

  The grid has 28 points; point `t` reads patches `224 t … 224 t + 223` of the `[6272, 1024, 9]` input (all channels and
  positions), reads the whole pooling matrix, and writes patches `224 t … 224 t + 223` of the `[6272, 64, 16]` output.
  A stored entry depends on its own patch's input row only (`Payload1.pay_at`), so what point `t` writes at
  `(b, r, j)` is the array function `arr` at `(224 t + b, r, j)`. Every patch `n` lies in the block of point `n / 224`,
  so the 28 blocks cover the output, which therefore ends holding `arr` of the arrays the region found.
  All of this is at any contents `V` of the buffers at region entry.
-/
import proofs.«103834_j81587198755295_1_alg».proof.Proof.Gen.KernelIdeal.Frame
import proofs.«103834_j81587198755295_1_alg».proof.Proof.Payload1
import Idealize.ShloMosaic.Lib.Pipeline.Value
import Idealize.ShloMosaic.Lib.Tactic

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx Cert.LibReshapeAxes
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem hN : cfg1.N = 28 := N_1

/-- The printed index maps, decided over the grid: the input and output blocks of point `t` are block `t` along the
    patch axis and block 0 along the others; the pooling matrix is always its one block. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The output array as a function of the input array and the pooling matrix: entry `(n, r, j)` from patch `n`'s row. -/
def arr (X : FVec Ideal S6272x1024x9 .f32) (v : FVec Ideal S64x16 .f32) : FVec Ideal S6272x64x16 .f32 := fun i =>
  Payload1.rowForm (fun ch p => X (ix3 ⟨(i 0).val, (i 0).isLt⟩ ch p)) v ⟨(i 1).val, (i 1).isLt⟩ ⟨(i 2).val, (i 2).isLt⟩

theorem arr_at (X : FVec Ideal S6272x1024x9 .f32) (v : FVec Ideal S64x16 .f32) (n : Fin 6272) (r : Fin 64) (j : Fin 16) :
    arr X v (ix3 n r j) = Payload1.rowForm (fun ch p => X (ix3 n ch p)) v r j := rfl

/-- One point, over plain vectors: if the input block `x` is patches `224 T …` of `X` and the matrix block is `v`, the
    stored entry at `y` is `arr` at the index `k` with the patch coordinate shifted by `224 T`. -/
theorem point_eq (X : FVec Ideal S6272x1024x9 .f32) (v : FVec Ideal S64x16 .f32) (x : FVec Ideal S224x1024x9 .f32)
    (v' : FVec Ideal S64x16 .f32) (T : ℕ) (hT : T < 28)
    (hx : ∀ (b : Fin 224) (ch : Fin 1024) (p : Fin 9), x (ix3 b ch p) = X (ix3 ⟨T * 224 + b.val, by have := b.isLt; omega⟩ ch p))
    (hv : v' = v) (y : S224x64x16.Idx) (k : S6272x64x16.Idx)
    (hk0 : (k 0).val = T * 224 + (y 0).val) (hk1 : (k 1).val = (y 1).val) (hk2 : (k 2).val = (y 2).val) :
    k1_pay1 (F := Ideal) x v' y = arr X v k := by
  subst hv
  obtain ⟨b, r, j, rfl⟩ : ∃ (b : Fin 224) (r : Fin 64) (j : Fin 16), y = ix3 b r j := ⟨y 0, y 1, y 2, eq_ix3 y⟩
  rw [Payload1.pay_at]
  unfold arr
  have e0 : (⟨(k 0).val, (k 0).isLt⟩ : Fin 6272) = ⟨T * 224 + b.val, by have := b.isLt; omega⟩ := Fin.ext hk0
  have e1 : (⟨(k 1).val, (k 1).isLt⟩ : Fin 64) = r := Fin.ext hk1
  have e2 : (⟨(k 2).val, (k 2).isLt⟩ : Fin 16) = j := Fin.ext hk2
  rw [e0, e1, e2]
  congr 1
  funext ch p
  exact hx b ch p

/-- The input block at point `t`, entry `(b, ch, p)`, is the input array at `(224 t + b, ch, p)`. -/
theorem in_block (c : Dev nD) (t : Fin cfg1.N) (b : Fin 224) (ch : Fin 1024) (p : Fin 9) :
    (iblk1 V c 0 t : S224x1024x9.Idx → Elt Ideal .f32) (ix3 b ch p)
      = (V c main_v3 : S6272x1024x9.Idx → Elt Ideal .f32) (ix3 ⟨t.val * 224 + b.val, by have := b.isLt; have := t.isLt; have := hN; omega⟩ ch p) := by
  obtain ⟨e0, e1, e2, -, -, -, -, -⟩ := idx_facts t
  unfold iblk1
  rw [View.read_apply]
  show V c main_v3 _ = V c main_v3 _
  congr 1
  funext a
  apply Fin.ext
  match a with
  | ⟨0, _⟩ => show win1_0.index t (0 : Fin 3) * 224 + 1 * b.val = t.val * 224 + b.val; rw [e0]; omega
  | ⟨1, _⟩ => show win1_0.index t (1 : Fin 3) * 1024 + 1 * ch.val = ch.val; rw [e1]; omega
  | ⟨2, _⟩ => show win1_0.index t (2 : Fin 3) * 9 + 1 * p.val = p.val; rw [e2]; omega

/-- The pooling matrix's block at any point is the whole matrix. -/
theorem mat_block (c : Dev nD) (t : Fin cfg1.N) :
    (iblk1 V c 1 t : S64x16.Idx → Elt Ideal .f32) = (V c main_cst_0 : S64x16.Idx → Elt Ideal .f32) := by
  obtain ⟨-, -, -, e3, e4, -, -, -⟩ := idx_facts t
  funext z
  unfold iblk1
  rw [View.read_apply]
  show V c main_cst_0 _ = V c main_cst_0 _
  congr 1
  funext a
  apply Fin.ext
  match a with
  | ⟨0, _⟩ => show win1_1.index t (0 : Fin 2) * 64 + 1 * (z 0).val = (z 0).val; rw [e3]; omega
  | ⟨1, _⟩ => show win1_1.index t (1 : Fin 2) * 16 + 1 * (z 1).val = (z 1).val; rw [e4]; omega

/-- What point `t` writes back is block `t` of `arr` of the arrays the region found. -/
theorem flushed_eq (c : Dev nD) (t : Fin cfg1.N) :
    (dat1 V c).flushed 2 t = ((cfg1.win 2).blk t).view.read (Elt Ideal)
      (arr (V c main_v3 : S6272x1024x9.Idx → Elt Ideal .f32) (V c main_cst_0 : S64x16.Idx → Elt Ideal .f32)) := by
  show (cfg1.win 2).cut (grid1.coords t) ((dat1 V c).after 2 t) = _
  rw [after1_2]
  unfold out1_2
  rw [View.canon_unit_zero hz3]
  simp only [View.ld_unit_zero (S := S224x1024x9) hz3, View.ld_unit_zero (S := S64x16) hz2]
  obtain ⟨-, -, -, -, -, e5, e6, e7⟩ := idx_facts t
  funext y
  show k1_pay1 (F := Ideal) (iblk1 V c 0 t) (iblk1 V c 1 t) y = arr _ _ (((cfg1.win 2).blk t).view.emb y)
  refine point_eq (V c main_v3 : S6272x1024x9.Idx → Elt Ideal .f32) (V c main_cst_0 : S64x16.Idx → Elt Ideal .f32)
    (iblk1 V c 0 t) (iblk1 V c 1 t) t.val (by have := t.isLt; have := hN; omega)
    (fun b ch p => in_block V c t b ch p) (mat_block V c t) y _ ?_ ?_ ?_
  · show win1_2.index t (0 : Fin 3) * 224 + 1 * (y 0).val = t.val * 224 + (y 0).val; rw [e5]; omega
  · show win1_2.index t (1 : Fin 3) * 64 + 1 * (y 1).val = (y 1).val; rw [e6]; omega
  · show win1_2.index t (2 : Fin 3) * 16 + 1 * (y 2).val = (y 2).val; rw [e7]; omega

/-- An index of the output array is in point `t`'s block iff each coordinate is in the block's range on its axis. -/
theorem mem_blk (t : Fin cfg1.N) (i : S6272x64x16.Idx) :
    i ∈ ((cfg1.win 2).blk t).view.set ↔ ∀ a : Fin 3, win1_2.index t a * S224x64x16.size a ≤ (i a).val ∧ (i a).val < win1_2.index t a * S224x64x16.size a + S224x64x16.size a := by
  show i ∈ ((View.whole main_v4).slice (win1_2.rect t)).set ↔ _
  rw [View.set_slice_whole, Rect.mem_set_unit]
  exact Iff.rfl

/-- Every index of the output array is in the block of the point its patch coordinate names. -/
theorem cover (i : S6272x64x16.Idx) :
    ∃ t : Fin cfg1.N, (cfg1.win 2).flush t = true ∧ i ∈ ((cfg1.win 2).blk t).view.set := by
  have hi0 : (i 0).val < 6272 := (i 0).isLt
  have hi1 : (i 1).val < 64 := (i 1).isLt
  have hi2 : (i 2).val < 16 := (i 2).isLt
  have hlt : (i 0).val / 224 < cfg1.N := by rw [hN]; omega
  obtain ⟨-, -, -, -, -, e5, e6, e7⟩ := idx_facts ⟨(i 0).val / 224, hlt⟩
  refine ⟨⟨(i 0).val / 224, hlt⟩, flush1_2 _, ?_⟩
  rw [mem_blk]
  intro a
  match a with
  | ⟨0, _⟩ => show win1_2.index ⟨(i 0).val / 224, hlt⟩ (0 : Fin 3) * 224 ≤ (i 0).val ∧ (i 0).val < win1_2.index ⟨(i 0).val / 224, hlt⟩ (0 : Fin 3) * 224 + 224; rw [e5]; show (i 0).val / 224 * 224 ≤ (i 0).val ∧ (i 0).val < (i 0).val / 224 * 224 + 224; omega
  | ⟨1, _⟩ => show win1_2.index ⟨(i 0).val / 224, hlt⟩ (1 : Fin 3) * 64 ≤ (i 1).val ∧ (i 1).val < win1_2.index ⟨(i 0).val / 224, hlt⟩ (1 : Fin 3) * 64 + 64; rw [e6]; omega
  | ⟨2, _⟩ => show win1_2.index ⟨(i 0).val / 224, hlt⟩ (2 : Fin 3) * 16 ≤ (i 2).val ∧ (i 2).val < win1_2.index ⟨(i 0).val / 224, hlt⟩ (2 : Fin 3) * 16 + 16; rw [e7]; omega

/-- The output array after the region: `arr` of the input array and the pooling matrix as the region found them. -/
theorem final (c : Dev nD) :
    (dat1 V c).arrAt 2 cfg1.N
      = arr (V c main_v3 : S6272x1024x9.Idx → Elt Ideal .f32) (V c main_cst_0 : S64x16.Idx → Elt Ideal .f32) :=
  (dat1 V c).arrAt_eq_of_cover 2 _ (fun t _ => flushed_eq V c t) cover

end Cert.KernelIdeal.Blocks1

end
-- ==== Proof.PoolLaw.lean ====
/-
  The pooling law on the extended reals.

  The kernel pools four neighbouring Gram entries by multiplying the whole row of 64 entries with a column of the
  pooling matrix: that column holds the weight `c` on the window's four positions `4 j, …, 4 j + 3` and `0` elsewhere.
  The reference sums the window's four entries and scales the sum. The two agree on every extended real: a product
  with `0` is `0` whatever the other factor (so the 60 entries outside the window vanish), and a nonnegative finite
  factor distributes over a sum even when the summands are infinite of either sign. No finiteness is needed.
-/
import Mathlib.Data.EReal.Operations
import Mathlib.Algebra.BigOperators.Fin
import Mathlib.Algebra.BigOperators.Group.Finset.Piecewise

noncomputable section

namespace Cert.PoolLaw

/-- Position `4 q + b` of the row of 64: entry `b` of window `q`. -/
abbrev at4 (q : Fin 16) (b : Fin 4) : Fin 64 := ⟨q.val * 4 + b.val, by have := q.isLt; have := b.isLt; omega⟩

/-- The 64 positions are the 16 windows of 4. -/
def windows : Fin 16 × Fin 4 ≃ Fin 64 where
  toFun x := at4 x.1 x.2
  invFun s := (⟨s.val / 4, by have := s.isLt; omega⟩, ⟨s.val % 4, by omega⟩)
  left_inv x := by
    have h1 := x.1.isLt; have h2 := x.2.isLt
    refine Prod.ext (Fin.ext ?_) (Fin.ext ?_)
    · show (x.1.val * 4 + x.2.val) / 4 = x.1.val; omega
    · show (x.1.val * 4 + x.2.val) % 4 = x.2.val; omega
  right_inv s := Fin.ext (by show s.val / 4 * 4 + s.val % 4 = s.val; omega)

/-- A sum over the 64 positions, window by window. -/
theorem sum_by_windows (f : Fin 64 → EReal) : ∑ s : Fin 64, f s = ∑ q : Fin 16, ∑ b : Fin 4, f (at4 q b) := by
  rw [← Equiv.sum_comp windows f, Fintype.sum_prod_type]
  rfl

/-- A nonnegative finite factor distributes over a finite sum of extended reals. -/
theorem sum_mul_of_nonneg {ι : Type} (s : Finset ι) (g : ι → EReal) {c : EReal} (hc : 0 ≤ c) (hc' : c ≠ ⊤) :
    (∑ i ∈ s, g i) * c = ∑ i ∈ s, g i * c := by
  classical
  induction s using Finset.induction_on with
  | empty => simp
  | insert a s ha ih =>
    rw [Finset.sum_insert ha, Finset.sum_insert ha, EReal.right_distrib_of_nonneg_of_ne_top hc hc', ih]

/-- The row times the pooling column of window `j` is the window's sum times the weight. -/
theorem pool_sum (g w : Fin 64 → EReal) (j : Fin 16) {c : EReal} (hc : 0 ≤ c) (hc' : c ≠ ⊤)
    (hw : ∀ (q : Fin 16) (b : Fin 4), w (at4 q b) = if q = j then c else 0) :
    ∑ s : Fin 64, g s * w s = (∑ b : Fin 4, g (at4 j b)) * c := by
  rw [sum_by_windows, sum_mul_of_nonneg _ _ hc hc']
  have hq : ∀ q : Fin 16, (∑ b : Fin 4, g (at4 q b) * w (at4 q b))
      = if q = j then ∑ b : Fin 4, g (at4 q b) * c else 0 := by
    intro q
    by_cases h : q = j
    · simp [hw, h]
    · simp [hw, h]
  simp only [hq, Finset.sum_ite_eq', Finset.mem_univ, if_true]

end Cert.PoolLaw

end
-- ==== Proof.Spec.lean ====
/-
  What one layer computes, as one function of its reshaped feature map `X : [6272, C, 9]` (patch, channel, position),
  with `C = 64 * K` channels in 64 groups of `K`:

    mean (n, r, p)   = (Σ_{a < K} X (n, r K + a, p)) · e              the group's mean, `e` the exact value 1/K
    gram (n, r, s)   = (Σ_{p < 9} mean (n, r, p) · mean (n, s, p)) / 9  the patch's 64 × 64 Gram matrix
    pooled (n, r, j) = (Σ_{b < 4} gram (n, r, 4 j + b)) · (1/4)         four neighbouring entries of row `r` averaged
    layer (n, 16 r + j) = pooled (n, r, j)                              the 64 × 16 result laid out as 1024 values

  The divisor 9 stays the bit pattern both programs spell: it is the same word on both sides and is never evaluated.
  Everything is over the extended reals; nothing here mentions a program.
-/
import Idealize.ShloMosaic.PureOps.Ideal
import Idealize.ShloMosaic.Lib.ValueIdx
import proofs.«103834_j81587198755295_1_alg».proof.Proof.LibReshapeAxes
import proofs.«103834_j81587198755295_1_alg».proof.Proof.PoolLaw

noncomputable section

namespace Cert.GramSpec

open Idealize.ShloMosaic Idealize.ShloMosaic.ValueIdx Cert.LibReshapeAxes Cert.PoolLaw

variable {C K : ℕ}

/-- The bit pattern of 9.0, the number of positions of a 3 × 3 patch. -/
abbrev nine : EReal := Ideal.ofBits .f32 0x41100000#32

/-- The mean of channel group `r` at position `p` of patch `n`. -/
def mean (hC : C = 64 * K) (e : EReal) (X : FVec Ideal ⟨3, ![6272, C, 9]⟩ .f32) (n : Fin 6272) (r : Fin 64) (p : Fin 9) : EReal :=
  (∑ a : Fin K, X (ix3 n (mid hC r a) p)) * e

/-- Entry `(r, s)` of patch `n`'s Gram matrix over the 9 positions. -/
def gram (hC : C = 64 * K) (e : EReal) (X : FVec Ideal ⟨3, ![6272, C, 9]⟩ .f32) (n : Fin 6272) (r s : Fin 64) : EReal :=
  Ideal.div (∑ p : Fin 9, mean hC e X n r p * mean hC e X n s p) nine

/-- Window `j` of row `r` of the Gram matrix, averaged. -/
def pooled (hC : C = 64 * K) (e : EReal) (X : FVec Ideal ⟨3, ![6272, C, 9]⟩ .f32) (n : Fin 6272) (r : Fin 64) (j : Fin 16) : EReal :=
  (∑ b : Fin 4, gram hC e X n r (at4 j b)) * ((1 / 4 : ℝ) : EReal)

/-- The layer's result as 64 × 16 values per patch. -/
def layer3 (hC : C = 64 * K) (e : EReal) (X : FVec Ideal ⟨3, ![6272, C, 9]⟩ .f32) : FVec Ideal ⟨3, ![6272, 64, 16]⟩ .f32 :=
  fun i => pooled hC e X ⟨(i 0).val, (i 0).isLt⟩ ⟨(i 1).val, (i 1).isLt⟩ ⟨(i 2).val, (i 2).isLt⟩

theorem layer3_at (hC : C = 64 * K) (e : EReal) (X : FVec Ideal ⟨3, ![6272, C, 9]⟩ .f32) (n : Fin 6272) (r : Fin 64) (j : Fin 16) :
    layer3 hC e X (ix3 n r j) = pooled hC e X n r j := rfl

/-- The layer's result as 1024 values per patch: value `o` is entry `(o / 16, o % 16)`. -/
def layer (hC : C = 64 * K) (e : EReal) (X : FVec Ideal ⟨3, ![6272, C, 9]⟩ .f32) : FVec Ideal ⟨2, ![6272, 1024]⟩ .f32 :=
  fun i => pooled hC e X ⟨(i 0).val, (i 0).isLt⟩ ⟨(i 1).val / 16, by have := idx2_lt1 i; show (i 1).val / 16 < 64; omega⟩
    ⟨(i 1).val % 16, by show (i 1).val % 16 < 16; omega⟩

theorem layer_at (hC : C = 64 * K) (e : EReal) (X : FVec Ideal ⟨3, ![6272, C, 9]⟩ .f32) (n : Fin 6272) (o : Fin 1024) :
    layer hC e X (ix2 n o) = pooled hC e X n ⟨o.val / 16, by have := o.isLt; omega⟩ ⟨o.val % 16, by omega⟩ := rfl

end Cert.GramSpec

end
-- ==== Proof.Consts.lean ====
/-
  The float constants of the two programs, as the extended reals their bit patterns denote at the exact values.
  The channel-group means use 1/8 and 1/16 in the kernel where the reference divides by 8 and 16; the output pooling
  uses the weight 1/4 in the kernel's pooling matrix where the reference divides by 4. All six are exact dyadics.
-/
import Idealize.ShloMosaic.PureOps.Ideal
import Idealize.ShloMosaic.PureOps.Ideal.Laws

noncomputable section

namespace Cert.Consts

open Idealize.ShloMosaic

theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num

end Cert.Consts

end
-- ==== Proof.Bridge.lean ====
/-
  The kernel's row form is the specification.

  For one patch, the kernel's entry `(r, j)` is `Σ_s gram (r, s) · v (s, j)` over all 64 columns `s`, with the group
  means scaled by the constant 1/K. When column `j` of the pooling matrix `v` holds 1/4 on the window `4 j … 4 j + 3`
  and 0 elsewhere, the pooling law collapses the sum to `(Σ_{b < 4} gram (r, 4 j + b)) · (1/4)`: the specification's
  `pooled`. The only constants evaluated are the kernel's 1/8 and 1/16.
-/
import proofs.«103834_j81587198755295_1_alg».proof.Proof.Payload0
import proofs.«103834_j81587198755295_1_alg».proof.Proof.Payload1
import proofs.«103834_j81587198755295_1_alg».proof.Proof.Spec
import proofs.«103834_j81587198755295_1_alg».proof.Proof.Consts
import proofs.«103834_j81587198755295_1_alg».proof.Proof.PoolLaw

noncomputable section

namespace Cert.Bridge

open Cert.KernelIdeal Idealize.ShloMosaic Idealize.ShloMosaic.ValueIdx Cert.LibReshapeAxes Cert.PoolLaw Cert.GramSpec

/-- Layer 0: the row of 64 Gram entries against the pooling column is the specification's pooled window. -/
theorem row0_eq (X : FVec Ideal S6272x512x9 .f32) (v : FVec Ideal S64x16 .f32) (n : Fin 6272) (r : Fin 64) (j : Fin 16)
    (hv : ∀ (q : Fin 16) (b : Fin 4), v (ix2 (at4 q b) j) = if q = j then ((1 / 4 : ℝ) : EReal) else 0) :
    Payload0.rowForm (fun ch p => X (ix3 n ch p)) v r j = pooled Payload0.hC ((1 / 8 : ℝ) : EReal) X n r j := by
  unfold Payload0.rowForm pooled
  rw [Cert.Consts.ofBits_eighth]
  exact pool_sum (fun s => gram Payload0.hC ((1 / 8 : ℝ) : EReal) X n r s) (fun s => v (ix2 s j)) j
    (EReal.coe_nonneg.mpr (by norm_num)) (EReal.coe_ne_top _) hv

/-- Layer 1: the row of 64 Gram entries against the pooling column is the specification's pooled window. -/
theorem row1_eq (X : FVec Ideal S6272x1024x9 .f32) (v : FVec Ideal S64x16 .f32) (n : Fin 6272) (r : Fin 64) (j : Fin 16)
    (hv : ∀ (q : Fin 16) (b : Fin 4), v (ix2 (at4 q b) j) = if q = j then ((1 / 4 : ℝ) : EReal) else 0) :
    Payload1.rowForm (fun ch p => X (ix3 n ch p)) v r j = pooled Payload1.hC ((1 / 16 : ℝ) : EReal) X n r j := by
  unfold Payload1.rowForm pooled
  rw [Cert.Consts.ofBits_sixteenth]
  exact pool_sum (fun s => gram Payload1.hC ((1 / 16 : ℝ) : EReal) X n r s) (fun s => v (ix2 s j)) j
    (EReal.coe_nonneg.mpr (by norm_num)) (EReal.coe_ne_top _) hv

end Cert.Bridge

end
-- ==== Proof.KernelHost.lean ====
/-
  The kernel program's result, read back through its host operations and its two regions.

  The result buffer is the concatenation, along a new middle axis, of the two layers' `[6272, 1024]` arrays. Layer 0's
  array is the first region's `[6272, 64, 16]` output regrouped; that output is the region's array function of what the
  region found: the reshaped first feature map and the first pooling matrix, both written by the host operations before
  it. Layer 1 likewise, its inputs untouched by the first region. Each regrouped output is the specification's `layer`
  (the pooling matrix's entries are 1/4 on each column's window and 0 elsewhere), so the result is the shared last
  three operations `tail` applied to the two specification layers.
-/
import proofs.«103834_j81587198755295_1_alg».proof.Proof.Gen.KernelIdeal.Frame
import proofs.«103834_j81587198755295_1_alg».proof.Proof.Blocks0
import proofs.«103834_j81587198755295_1_alg».proof.Proof.Blocks1
import proofs.«103834_j81587198755295_1_alg».proof.Proof.Bridge
import proofs.«103834_j81587198755295_1_alg».proof.Proof.Spec
import proofs.«103834_j81587198755295_1_alg».proof.Proof.Consts
import Idealize.ShloMosaic.Lib.StableHlo.Run
import Idealize.ShloMosaic.Lib.Pipeline.Value
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.LibReshapeAxes Cert.PoolLaw Cert.GramSpec

/-- The programs' shared last three operations: each layer's array given a unit middle axis, the two joined there. -/
def tail (a b : FVec Ideal S6272x1024 .f32) : FVec Ideal S6272x2x1024 .f32 :=
  concatenate S6272x2x1024 1
    [⟨S6272x1x1024, broadcastInDim S6272x1x1024 ![0, 2] bcast_S6272x1024_S6272x1x1024_0_2 a⟩,
     ⟨S6272x1x1024, broadcastInDim S6272x1x1024 ![0, 2] bcast_S6272x1024_S6272x1x1024_0_2 b⟩]
    concatenates_S6272x1x1024_S6272x1x1024_S6272x2x1024_d1

/-! ## The regrouped region outputs are the specification's layers -/

/-- Layer 0: the pooling matrix's entries, from its literal table: 1/4 on column `j`'s window, 0 elsewhere. -/
theorem lit0_fact : ∀ (q : Fin 16) (b : Fin 4) (j : Fin 16),
    lit0 (S64x16.rowMajor (ix2 (at4 q b) j)) = if q = j then 0x3E800000#32 else 0x00000000#32 := by
  decide +kernel

/-- Layer 0: the region's `[6272, 64, 16]` output laid out as `[6272, 1024]` is the specification's `layer`. -/
theorem arr0_layer (X : FVec Ideal S6272x512x9 .f32) :
    shapeCast S6272x1024 (Blocks0.arr X (fun i => Ideal.ofBits .f32 (lit0 (S64x16.rowMajor i)))) shapeCasts_S6272x64x16_S6272x1024
      = layer Payload0.hC ((1 / 8 : ℝ) : EReal) X := by
  funext i
  obtain ⟨n, o, rfl⟩ : ∃ (n : Fin 6272) (o : Fin 1024), i = ix2 n o := ⟨i 0, i 1, eq_ix2 i⟩
  rw [layer_at]
  refine (merge_trailing_at _ shapeCasts_S6272x64x16_S6272x1024 (rfl : 1024 = 64 * 16) (by decide) n o).trans ?_
  rw [Blocks0.arr_at]
  refine Cert.Bridge.row0_eq X _ n _ _ fun q b => ?_
  show Ideal.ofBits .f32 (lit0 (S64x16.rowMajor (ix2 (at4 q b) _))) = _
  rw [lit0_fact q b]
  split_ifs with h
  · exact Cert.Consts.ofBits_quarter
  · exact Ideal.ofBits_zero_f32

/-- Layer 1: the pooling matrix's entries, from its literal table: 1/4 on column `j`'s window, 0 elsewhere. -/
theorem lit1_fact : ∀ (q : Fin 16) (b : Fin 4) (j : Fin 16),
    lit1 (S64x16.rowMajor (ix2 (at4 q b) j)) = if q = j then 0x3E800000#32 else 0x00000000#32 := by
  decide +kernel

/-- Layer 1: the region's `[6272, 64, 16]` output laid out as `[6272, 1024]` is the specification's `layer`. -/
theorem arr1_layer (X : FVec Ideal S6272x1024x9 .f32) :
    shapeCast S6272x1024 (Blocks1.arr X (fun i => Ideal.ofBits .f32 (lit1 (S64x16.rowMajor i)))) shapeCasts_S6272x64x16_S6272x1024
      = layer Payload1.hC ((1 / 16 : ℝ) : EReal) X := by
  funext i
  obtain ⟨n, o, rfl⟩ : ∃ (n : Fin 6272) (o : Fin 1024), i = ix2 n o := ⟨i 0, i 1, eq_ix2 i⟩
  rw [layer_at]
  refine (merge_trailing_at _ shapeCasts_S6272x64x16_S6272x1024 (rfl : 1024 = 64 * 16) (by decide) n o).trans ?_
  rw [Blocks1.arr_at]
  refine Cert.Bridge.row1_eq X _ n _ _ fun q b => ?_
  show Ideal.ofBits .f32 (lit1 (S64x16.rowMajor (ix2 (at4 q b) _))) = _
  rw [lit1_fact q b]
  split_ifs with h
  · exact Cert.Consts.ofBits_quarter
  · exact Ideal.ofBits_zero_f32

/-! ## The buffers the regions find and leave -/

variable (m : (ℓ : Loc nD τ sig) → Buf (Elt Ideal) ℓ) (ρ : Dev nD → PrngReg)

/-- The first feature map, reshaped, as region 0 finds it. -/
theorem W1_v0 (c : Dev nD) : W1 m ρ c (Proc.devRef .tc main_v0)
    = shapeCast S6272x512x9 (m ((c : Thread nD τ).loc main_arg0)) shapeCasts_S6272x512x3x3_S6272x512x9 := by
  show StableHlo.after hostOps0 (W0 m ρ c) (Proc.devRef .tc main_v0) = _
  after_results; rfl
/-- The first pooling matrix as region 0 finds it. -/
theorem W1_cst (c : Dev nD) : W1 m ρ c (Proc.devRef .tc main_cst)
    = fun i => Ideal.ofBits .f32 (lit0 (S64x16.rowMajor i)) := by
  show StableHlo.after hostOps0 (W0 m ρ c) (Proc.devRef .tc main_cst) = _
  after_results; rfl
/-- The second pooling matrix after the first host operations. -/
theorem W1_cst0 (c : Dev nD) : W1 m ρ c (Proc.devRef .tc main_cst_0)
    = fun i => Ideal.ofBits .f32 (lit1 (S64x16.rowMajor i)) := by
  show StableHlo.after hostOps0 (W0 m ρ c) (Proc.devRef .tc main_cst_0) = _
  after_results; rfl
/-- The second feature map is untouched by the first host operations. -/
theorem W1_arg1 (c : Dev nD) : W1 m ρ c (Proc.devRef .tc main_arg1) = m ((c : Thread nD τ).loc main_arg1) := by
  show StableHlo.after hostOps0 (W0 m ρ c) (Proc.devRef .tc main_arg1) = _
  after_results

/-- Region 0 leaves its output at its array function of what it found. -/
theorem W2_v1 (c : Dev nD) : W2 m ρ c (Proc.devRef .tc main_v1)
    = Blocks0.arr (shapeCast S6272x512x9 (m ((c : Thread nD τ).loc main_arg0)) shapeCasts_S6272x512x3x3_S6272x512x9)
        (fun i => Ideal.ofBits .f32 (lit0 (S64x16.rowMajor i))) := by
  refine (W2_arr m ρ c 2).trans ?_
  refine (Blocks0.final (V1 m ρ) c).trans ?_
  show Blocks0.arr (W1 m ρ c (Proc.devRef .tc main_v0)) (W1 m ρ c (Proc.devRef .tc main_cst)) = _
  rw [W1_v0, W1_cst]

/-- The second feature map, reshaped, as region 1 finds it. -/
theorem W3_v3 (c : Dev nD) : W3 m ρ c (Proc.devRef .tc main_v3)
    = shapeCast S6272x1024x9 (m ((c : Thread nD τ).loc main_arg1)) shapeCasts_S6272x1024x3x3_S6272x1024x9 := by
  show StableHlo.after hostOps1 (W2 m ρ c) (Proc.devRef .tc main_v3) = _
  after_results
  rw [W2_of_ne m ρ c main_arg1 (by decide), W1_arg1]
  rfl
/-- The second pooling matrix as region 1 finds it. -/
theorem W3_cst0 (c : Dev nD) : W3 m ρ c (Proc.devRef .tc main_cst_0)
    = fun i => Ideal.ofBits .f32 (lit1 (S64x16.rowMajor i)) := by
  show StableHlo.after hostOps1 (W2 m ρ c) (Proc.devRef .tc main_cst_0) = _
  after_results
  exact (W2_of_ne m ρ c main_cst_0 (by decide)).trans (W1_cst0 m ρ c)
/-- Layer 0's array: region 0's output regrouped. -/
theorem W3_v2 (c : Dev nD) : W3 m ρ c (Proc.devRef .tc main_v2)
    = shapeCast S6272x1024 (W2 m ρ c (Proc.devRef .tc main_v1)) shapeCasts_S6272x64x16_S6272x1024 := by
  show StableHlo.after hostOps1 (W2 m ρ c) (Proc.devRef .tc main_v2) = _
  after_results; rfl

/-- Region 1 leaves its output at its array function of what it found. -/
theorem W4_v4 (c : Dev nD) : W4 m ρ c (Proc.devRef .tc main_v4)
    = Blocks1.arr (shapeCast S6272x1024x9 (m ((c : Thread nD τ).loc main_arg1)) shapeCasts_S6272x1024x3x3_S6272x1024x9)
        (fun i => Ideal.ofBits .f32 (lit1 (S64x16.rowMajor i))) := by
  refine (W4_arr m ρ c 2).trans ?_
  refine (Blocks1.final (V3 m ρ) c).trans ?_
  show Blocks1.arr (W3 m ρ c (Proc.devRef .tc main_v3)) (W3 m ρ c (Proc.devRef .tc main_cst_0)) = _
  rw [W3_v3, W3_cst0]

/-! ## The result -/

/-- The result buffer after the last host operations: `tail` of the two specification layers of the reshaped arguments. -/
theorem result_eq (c : Dev nD) : W5 m ρ c (Proc.devRef .tc main_v8)
    = tail (layer Payload0.hC ((1 / 8 : ℝ) : EReal)
              (shapeCast S6272x512x9 (m ((c : Thread nD τ).loc main_arg0)) shapeCasts_S6272x512x3x3_S6272x512x9))
           (layer Payload1.hC ((1 / 16 : ℝ) : EReal)
              (shapeCast S6272x1024x9 (m ((c : Thread nD τ).loc main_arg1)) shapeCasts_S6272x1024x3x3_S6272x1024x9)) := by
  rw [← arr0_layer, ← arr1_layer, ← W2_v1 m ρ c, ← W4_v4 m ρ c, ← W3_v2 m ρ c, ← W4_of_ne m ρ c main_v2 (by decide)]
  show StableHlo.after hostOps2 (W4 m ρ c) (Proc.devRef .tc main_v8) = _
  after_results
  rfl

end Cert.KernelIdeal.Host

end
-- ==== Proof.RefLayer.lean ====
/-
  The reference, layer by layer, is the specification.

  For each layer the reference transposes the reshaped feature map to put channels last, splits the channel axis into
  64 groups, sums each group and divides by the group size, transposes back, takes each patch's Gram matrix over the 9
  positions and divides by 9, flattens the 64 × 64 matrix to 4096 values, regroups them as 1024 windows of 4, sums each
  window and divides by 4. Followed index by index, output value `o` of patch `n` reads Gram row `o / 16` and the four
  columns `4 (o % 16) + b`, and a Gram entry `(r, s)` reads channels `K r + a` and `K s + a` of that patch: the
  specification's `layer`. Dividing by the exact constants 4 and K is multiplying by 1/4 and 1/K on every extended
  real; adding the sums to the initial value 0 changes nothing.
-/
import proofs.«103834_j81587198755295_1_alg».proof.Proof.Gen.ReferenceIdeal.Read
import proofs.«103834_j81587198755295_1_alg».proof.Proof.Spec
import proofs.«103834_j81587198755295_1_alg».proof.Proof.Consts

set_option maxRecDepth 16384

noncomputable section

namespace Cert.ReferenceIdeal.RefLayer

open Cert.ReferenceIdeal Cert.ReferenceIdeal.Read Idealize.ShloMosaic Idealize.ShloMosaic.ValueIdx
open Cert.LibReshapeAxes Cert.PoolLaw Cert.GramSpec

theorem hC0 : 512 = 64 * 8 := rfl
theorem hC1 : 1024 = 64 * 16 := rfl

/-! ## Where a term of the pooled sum reads the reshaped input -/

theorem idx_l0 (i : S6272x1024.Idx) (b : Fin 4) (p : Fin 9) (a : Fin 8) :
    idx_main_v1 (idx_main_v2 (idx_main_v3 (idx_main_v6 (lidx_main_v7 (idx_main_v10 (idx_main_v11 (idx_main_v12 i b))) p)) a))
      = ix3 (⟨(i 0).val, idx2_lt0 i⟩ : Fin 6272) (mid hC0 (⟨(i 1).val / 16, by have := idx2_lt1 i; omega⟩ : Fin 64) a) p := by
  have h0 := idx2_lt0 i; have h1 := idx2_lt1 i; have hb := b.isLt; have hp := p.isLt; have ha := a.isLt
  funext c; apply Fin.ext
  match c with
  | ⟨0, _⟩ => show _ = (i 0).val; dsimp only; omega
  | ⟨1, _⟩ => show _ = (i 1).val / 16 * 8 + a.val; dsimp only; omega
  | ⟨2, _⟩ => show _ = p.val; dsimp only; omega

theorem idx_r0 (i : S6272x1024.Idx) (b : Fin 4) (p : Fin 9) (a : Fin 8) :
    idx_main_v1 (idx_main_v2 (idx_main_v3 (idx_main_v6 (ridx_main_v7 (idx_main_v10 (idx_main_v11 (idx_main_v12 i b))) p)) a))
      = ix3 (⟨(i 0).val, idx2_lt0 i⟩ : Fin 6272) (mid hC0 (at4 (⟨(i 1).val % 16, by omega⟩ : Fin 16) b) a) p := by
  have h0 := idx2_lt0 i; have h1 := idx2_lt1 i; have hb := b.isLt; have hp := p.isLt; have ha := a.isLt
  funext c; apply Fin.ext
  match c with
  | ⟨0, _⟩ => show _ = (i 0).val; dsimp only; omega
  | ⟨1, _⟩ => show _ = ((i 1).val % 16 * 4 + b.val) * 8 + a.val; dsimp only; omega
  | ⟨2, _⟩ => show _ = p.val; dsimp only; omega

theorem idx_l1 (i : S6272x1024.Idx) (b : Fin 4) (p : Fin 9) (a : Fin 16) :
    idx_main_v16 (idx_main_v17 (idx_main_v18 (idx_main_v21 (lidx_main_v22 (idx_main_v25 (idx_main_v26 (idx_main_v27 i b))) p)) a))
      = ix3 (⟨(i 0).val, idx2_lt0 i⟩ : Fin 6272) (mid hC1 (⟨(i 1).val / 16, by have := idx2_lt1 i; omega⟩ : Fin 64) a) p := by
  have h0 := idx2_lt0 i; have h1 := idx2_lt1 i; have hb := b.isLt; have hp := p.isLt; have ha := a.isLt
  funext c; apply Fin.ext
  match c with
  | ⟨0, _⟩ => show _ = (i 0).val; dsimp only; omega
  | ⟨1, _⟩ => show _ = (i 1).val / 16 * 16 + a.val; dsimp only; omega
  | ⟨2, _⟩ => show _ = p.val; dsimp only; omega

theorem idx_r1 (i : S6272x1024.Idx) (b : Fin 4) (p : Fin 9) (a : Fin 16) :
    idx_main_v16 (idx_main_v17 (idx_main_v18 (idx_main_v21 (ridx_main_v22 (idx_main_v25 (idx_main_v26 (idx_main_v27 i b))) p)) a))
      = ix3 (⟨(i 0).val, idx2_lt0 i⟩ : Fin 6272) (mid hC1 (at4 (⟨(i 1).val % 16, by omega⟩ : Fin 16) b) a) p := by
  have h0 := idx2_lt0 i; have h1 := idx2_lt1 i; have hb := b.isLt; have hp := p.isLt; have ha := a.isLt
  funext c; apply Fin.ext
  match c with
  | ⟨0, _⟩ => show _ = (i 0).val; dsimp only; omega
  | ⟨1, _⟩ => show _ = ((i 1).val % 16 * 4 + b.val) * 16 + a.val; dsimp only; omega
  | ⟨2, _⟩ => show _ = p.val; dsimp only; omega

/-! ## The two layers -/

/-- Layer 0: the reference's `[6272, 1024]` array is the specification's `layer` of its reshaped input. -/
theorem layer0_eq (x : (⟨S6272x512x3x3, .f32⟩ : BufTy).Contents (Elt Ideal)) :
    val_main_v14 (F := Ideal) x = layer hC0 ((1 / 8 : ℝ) : EReal) (val_main_v0 (F := Ideal) x) := by
  funext i
  show _ = pooled hC0 _ _ (⟨(i 0).val, idx2_lt0 i⟩ : Fin 6272) (⟨(i 1).val / 16, by have := idx2_lt1 i; omega⟩ : Fin 64)
    (⟨(i 1).val % 16, by omega⟩ : Fin 16)
  simp only [val_main_v14_apply, val_main_v12_apply, val_main_v13_apply, val_main_cst_3_apply, val_main_cst_2_apply, val_main_v11_apply, val_main_v10_apply, val_main_v9_apply, val_main_v7_apply, val_main_v8_apply, val_main_cst_1_apply, val_main_v6_apply, val_main_v5_apply, val_main_v3_apply, val_main_v4_apply, val_main_cst_0_apply, val_main_cst_apply, val_main_v2_apply, val_main_v1_apply]
  simp only [Ideal.hostDivf_def, Ideal.ofBits_def, Ideal.ofBits_zero_f32, zero_add, Cert.Consts.ofBits_4, Cert.Consts.ofBits_8,
    Ideal.div_coe (by norm_num : (4 : ℝ) ≠ 0), Ideal.div_coe (by norm_num : (8 : ℝ) ≠ 0), idx_l0, idx_r0]
  rfl

/-- Layer 1: the reference's `[6272, 1024]` array is the specification's `layer` of its reshaped input. -/
theorem layer1_eq (x : (⟨S6272x1024x3x3, .f32⟩ : BufTy).Contents (Elt Ideal)) :
    val_main_v29 (F := Ideal) x = layer hC1 ((1 / 16 : ℝ) : EReal) (val_main_v15 (F := Ideal) x) := by
  funext i
  show _ = pooled hC1 _ _ (⟨(i 0).val, idx2_lt0 i⟩ : Fin 6272) (⟨(i 1).val / 16, by have := idx2_lt1 i; omega⟩ : Fin 64)
    (⟨(i 1).val % 16, by omega⟩ : Fin 16)
  simp only [val_main_v29_apply, val_main_v27_apply, val_main_v28_apply, val_main_cst_8_apply, val_main_cst_7_apply, val_main_v26_apply, val_main_v25_apply, val_main_v24_apply, val_main_v22_apply, val_main_v23_apply, val_main_cst_6_apply, val_main_v21_apply, val_main_v20_apply, val_main_v18_apply, val_main_v19_apply, val_main_cst_5_apply, val_main_cst_4_apply, val_main_v17_apply, val_main_v16_apply]
  simp only [Ideal.hostDivf_def, Ideal.ofBits_def, Ideal.ofBits_zero_f32, zero_add, Cert.Consts.ofBits_4, Cert.Consts.ofBits_16,
    Ideal.div_coe (by norm_num : (4 : ℝ) ≠ 0), Ideal.div_coe (by norm_num : (16 : ℝ) ≠ 0), idx_l1, idx_r1]
  rfl

end Cert.ReferenceIdeal.RefLayer

end
-- ==== Proof.Claims.lean ====
/-
  The five claims.

  The three frames: the word-level kernel and the idealized kernel by their generated frame proofs; the reference by
  its generated run with the result dropped. The idealization rewrote nothing, so there is nothing to preserve.
  The value claim: at the exact values the kernel program's result is the shared last three operations applied to the
  two specification layers of its reshaped arguments (`Host.result_eq` over the run with the result named), and the
  reference's result is the same three operations applied to its two layer arrays, each of which is the specification
  layer of its reshaped argument (`RefLayer.layer0_eq`, `layer1_eq`); the arguments agree. Finiteness of the inputs is
  never used: every law involved holds on all extended reals.
-/
import proofs.«103834_j81587198755295_1_alg».proof.Defs
import proofs.«103834_j81587198755295_1_alg».proof.Proof.Gen.Kernel
import proofs.«103834_j81587198755295_1_alg».proof.Proof.Gen.Kernel.Frame
import proofs.«103834_j81587198755295_1_alg».proof.Proof.Gen.KernelIdeal
import proofs.«103834_j81587198755295_1_alg».proof.Proof.Gen.KernelIdeal.Frame
import proofs.«103834_j81587198755295_1_alg».proof.Proof.Gen.ReferenceIdeal
import proofs.«103834_j81587198755295_1_alg».proof.Proof.Gen.ReferenceIdeal.Run
import proofs.«103834_j81587198755295_1_alg».proof.Proof.Gen.ReferenceIdeal.Read
import proofs.«103834_j81587198755295_1_alg».proof.Proof.Gen.Pre_finite_inputs
import proofs.«103834_j81587198755295_1_alg».proof.Proof.KernelRun
import proofs.«103834_j81587198755295_1_alg».proof.Proof.KernelHost
import proofs.«103834_j81587198755295_1_alg».proof.Proof.RefLayer

set_option maxRecDepth 16384

noncomputable section

namespace Cert.Proof.Claims

open Idealize.ShloMosaic Idealize.ShloMosaic.TcCoe Idealize.SL.Sem Cert.GramSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two specification layers of their (agreeing) reshaped arguments under the same last
    three operations. -/
theorem algebraic : Cert.algebraic_KernelIdeal_ReferenceIdeal := by
  intro m ρ m' ρ' _ hagree
  refine ⟨fun c => Cert.KernelIdeal.Host.tail
      (layer Cert.KernelIdeal.Payload0.hC ((1 / 8 : ℝ) : EReal)
        (shapeCast Cert.KernelIdeal.S6272x512x9 (m ((c.tc : Thread Cert.KernelIdeal.nD Cert.KernelIdeal.τ).loc Cert.KernelIdeal.main_arg0))
          Cert.KernelIdeal.Gen.shapeCasts_S6272x512x3x3_S6272x512x9))
      (layer Cert.KernelIdeal.Payload1.hC ((1 / 16 : ℝ) : EReal)
        (shapeCast Cert.KernelIdeal.S6272x1024x9 (m ((c.tc : Thread Cert.KernelIdeal.nD Cert.KernelIdeal.τ).loc Cert.KernelIdeal.main_arg1))
          Cert.KernelIdeal.Gen.shapeCasts_S6272x1024x3x3_S6272x1024x9)), ?_, ?_⟩
  · exact (θ_run Cert.KernelIdeal.defs _ _).mono
      (fun r h c => ⟨(h c).1.trans (Cert.KernelIdeal.Host.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq]
    show Cert.KernelIdeal.Host.tail
        (Cert.ReferenceIdeal.Read.val_main_v14 (F := Ideal) (m' ((c.tc : Thread Cert.ReferenceIdeal.nD Cert.ReferenceIdeal.τ).loc Cert.ReferenceIdeal.main_arg0)))
        (Cert.ReferenceIdeal.Read.val_main_v29 (F := Ideal) (m' ((c.tc : Thread Cert.ReferenceIdeal.nD Cert.ReferenceIdeal.τ).loc Cert.ReferenceIdeal.main_arg1))) = _
    rw [Cert.ReferenceIdeal.RefLayer.layer0_eq, Cert.ReferenceIdeal.RefLayer.layer1_eq, (hagree c).1, (hagree c).2]
    rfl

end Cert.Proof.Claims

end
-- ==== Proof.lean ====
/-
  Two layers of per-patch channel Gram matrices, pooled: the Pallas kernel against its jnp reference, at the exact values.

  For each of the two feature maps (512 and 1024 channels over 3 × 3 patches) both programs average the channels in 64
  groups, take each patch's 64 × 64 Gram matrix of the group means over the 9 positions divided by 9, and average each
  row's 16 windows of 4 neighbouring entries, giving 1024 values per patch; the two layers are stacked. The kernel
  scales the group sums by 1/8 and 1/16 where the reference divides by 8 and 16, and pools by a matrix product with a
  0 / (1/4) matrix where the reference sums four entries and divides by 4. These agree on every extended real: the
  scalings are the same exact dyadic numbers, a product with 0 vanishes whatever the other factor, and a nonnegative
  finite factor distributes over a sum (Proof/PoolLaw.lean). The specification is Proof/Spec.lean; the reference is the
  specification in Proof/RefLayer.lean; the kernel's body, blocks, host operations and run are Proof/Payload*.lean,
  Proof/Blocks*.lean, Proof/KernelHost.lean and Proof/KernelRun.lean; the claims are Proof/Claims.lean.
-/
import proofs.«103834_j81587198755295_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
